-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S1x128 : Shape := ⟨2, ![1, 128]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S800000x128 : Shape := ⟨2, ![800000, 128]⟩

abbrev nBuf : Space → Nat
  | .hbm => 82
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S128x256, .bf16⟩
  | .hbm, ⟨30, _⟩ => ⟨S1x256, .f32⟩
  | .hbm, ⟨31, _⟩ => ⟨S256x256, .bf16⟩
  | .hbm, ⟨32, _⟩ => ⟨S1x256, .f32⟩
  | .hbm, ⟨33, _⟩ => ⟨S256x128, .bf16⟩
  | .hbm, ⟨34, _⟩ => ⟨S1x128, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S256x256, .bf16⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S256x128, .bf16⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S1x256 : Shape := ⟨2, ![1, 256]⟩
abbrev S50000x1 : Shape := ⟨2, ![50000, 1]⟩
abbrev S800000x256 : Shape := ⟨2, ![800000, 256]⟩
abbrev S1x128 : Shape := ⟨2, ![1, 128]⟩
abbrev S800000x128 : Shape := ⟨2, ![800000, 128]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S50000x1, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_9 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call2_cst : Ref sig .tc := ⟨.hbm, 102, rfl⟩
abbrev main_call2_v0 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The kernel's whole run with its result named. The program is eight segments: host operations, the first dense
  layer's call, host operations (gather along the senders, scatter-add onto the receivers), the second layer's call,
  host operations, the third layer's call, and two last stretches of host operations. Every weakly fair execution
  runs through them in order, and at the end every buffer the TensorCore keeps holds the contents the fold of the
  segments gives it; read at the result buffer and at the nine arguments this is the statement below.
-/
import proofs.«153455_j10694468567401_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel terminates without a fault, its result buffer holding what the last
    segment boundary's contents give it and its arguments unchanged. -/
theorem run : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Whole

end
-- ==== Proof.KernelDense.lean ====
/-
  The three dense-layer bodies of the graph-convolution kernel, read one entry at a time on the extended reals.
  Each body takes a block of 2000 node rows, multiplies it by the layer's whole weight matrix (the rounding of the
  operands to bf16 is the identity here), adds the bias row and scales row `p` by that node's sender-degree norm; layers
  two and three first scale the incoming aggregate by the receiver-degree norm and clip it below at zero. So entry
  `(p, q)` of the stored block is `(∑ₖ a(p,k) · w(k,q) + b(q)) · sₚ` with `a` the (activated) input row.
-/
import proofs.«153455_j10694468567401_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Idealize.ShloMosaic Idealize.ShloMosaic.ValueIdx Cert.KernelIdeal Cert.KernelIdeal.Gen

/-- A column block `[a, 1]` broadcast along the lanes reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem mm0_l0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem mm0_l1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem mm0_r0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem mm0_r1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl
/-- The contraction read at an output index, re-indexed over the 128 contracted features: the left operand's row against the right operand's column. -/
theorem mm0_sum {φ₁ φ₂ : FTy} (x : FVec Ideal S2000x128 φ₁) (w : FVec Ideal S128x256 φ₂) (i : S2000x256.Idx) :
    (∑ k : dot_S2000x128_S128x256_S2000x256_1_0_0_1_n_n.contr.Idx, x (dot_S2000x128_S128x256_S2000x256_1_0_0_1_n_n.lhsIdx i k) * w (dot_S2000x128_S128x256_S2000x256_1_0_0_1_n_n.rhsIdx i k))
      = ∑ k : Fin 128, x (ix2 ⟨(i 0).val, (i 0).isLt⟩ k) * w (ix2 k ⟨(i 1).val, (i 1).isLt⟩) := by
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx i ((contrEquiv1 dot_S2000x128_S128x256_S2000x256_1_0_0_1_n_n 128 rfl rfl).symm k) = ix2 ⟨(i 0).val, (i 0).isLt⟩ k := funext fun a => Fin.ext (by
    match a with
    | ⟨0, _⟩ => exact mm0_l0 _ _
    | ⟨1, _⟩ => exact (mm0_l1 _ _).trans hk)
  have er : dot_S2000x128_S128x256_S2000x256_1_0_0_1_n_n.rhsIdx i ((contrEquiv1 dot_S2000x128_S128x256_S2000x256_1_0_0_1_n_n 128 rfl rfl).symm k) = ix2 k ⟨(i 1).val, (i 1).isLt⟩ := funext fun a => Fin.ext (by
    match a with
    | ⟨0, _⟩ => exact (mm0_r0 _ _).trans hk
    | ⟨1, _⟩ => exact mm0_r1 _ _)
  rw [el, er]
  rfl

theorem mm1_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm1_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem mm1_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem mm1_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
/-- The contraction read at an output index, re-indexed over the 256 contracted features: the left operand's row against the right operand's column. -/
theorem mm1_sum {φ₁ φ₂ : FTy} (x : FVec Ideal S2000x256 φ₁) (w : FVec Ideal S256x256 φ₂) (i : S2000x256.Idx) :
    (∑ k : dot_S2000x256_S256x256_S2000x256_1_0_0_1_n_n.contr.Idx, x (dot_S2000x256_S256x256_S2000x256_1_0_0_1_n_n.lhsIdx i k) * w (dot_S2000x256_S256x256_S2000x256_1_0_0_1_n_n.rhsIdx i k))
      = ∑ k : Fin 256, x (ix2 ⟨(i 0).val, (i 0).isLt⟩ k) * w (ix2 k ⟨(i 1).val, (i 1).isLt⟩) := by
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx i ((contrEquiv1 dot_S2000x256_S256x256_S2000x256_1_0_0_1_n_n 256 rfl rfl).symm k) = ix2 ⟨(i 0).val, (i 0).isLt⟩ k := funext fun a => Fin.ext (by
    match a with
    | ⟨0, _⟩ => exact mm1_l0 _ _
    | ⟨1, _⟩ => exact (mm1_l1 _ _).trans hk)
  have er : dot_S2000x256_S256x256_S2000x256_1_0_0_1_n_n.rhsIdx i ((contrEquiv1 dot_S2000x256_S256x256_S2000x256_1_0_0_1_n_n 256 rfl rfl).symm k) = ix2 k ⟨(i 1).val, (i 1).isLt⟩ := funext fun a => Fin.ext (by
    match a with
    | ⟨0, _⟩ => exact (mm1_r0 _ _).trans hk
    | ⟨1, _⟩ => exact mm1_r1 _ _)
  rw [el, er]
  rfl

theorem mm2_l0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem mm2_l1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem mm2_r0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem mm2_r1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
/-- The contraction read at an output index, re-indexed over the 256 contracted features: the left operand's row against the right operand's column. -/
theorem mm2_sum {φ₁ φ₂ : FTy} (x : FVec Ideal S2000x256 φ₁) (w : FVec Ideal S256x128 φ₂) (i : S2000x128.Idx) :
    (∑ k : dot_S2000x256_S256x128_S2000x128_1_0_0_1_n_n.contr.Idx, x (dot_S2000x256_S256x128_S2000x128_1_0_0_1_n_n.lhsIdx i k) * w (dot_S2000x256_S256x128_S2000x128_1_0_0_1_n_n.rhsIdx i k))
      = ∑ k : Fin 256, x (ix2 ⟨(i 0).val, (i 0).isLt⟩ k) * w (ix2 k ⟨(i 1).val, (i 1).isLt⟩) := by
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx i ((contrEquiv1 dot_S2000x256_S256x128_S2000x128_1_0_0_1_n_n 256 rfl rfl).symm k) = ix2 ⟨(i 0).val, (i 0).isLt⟩ k := funext fun a => Fin.ext (by
    match a with
    | ⟨0, _⟩ => exact mm2_l0 _ _
    | ⟨1, _⟩ => exact (mm2_l1 _ _).trans hk)
  have er : dot_S2000x256_S256x128_S2000x128_1_0_0_1_n_n.rhsIdx i ((contrEquiv1 dot_S2000x256_S256x128_S2000x128_1_0_0_1_n_n 256 rfl rfl).symm k) = ix2 k ⟨(i 1).val, (i 1).isLt⟩ := funext fun a => Fin.ext (by
    match a with
    | ⟨0, _⟩ => exact (mm2_r0 _ _).trans hk
    | ⟨1, _⟩ => exact mm2_r1 _ _)
  rw [el, er]
  rfl

/-- What the first layer's body stores, entry `(p, q)` of its block: the row's features against column `q` of the
    weights, plus the bias, scaled by the row's sender norm. -/
theorem pay0_apply (x : Vec Ideal S2000x128 .f32) (w : Vec Ideal S128x256 .bf16) (b : Vec Ideal S1x256 .f32) (sn : Vec Ideal S2000x1 .f32)
    (p : Fin 2000) (q : Fin 256) :
    k0_pay1 x w b sn (ix2 p q) = (∑ k : Fin 128, x (ix2 p k) * w (ix2 k q) + b (ix2 (0 : Fin 1) q)) * sn (ix2 p (0 : Fin 1)) := by
  unfold k0_pay1
  rw [shapeCast_self, shapeCast_self, shapeCast_self]
  show (matmul (F := Ideal) dot_S2000x128_S128x256_S2000x256_1_0_0_1_n_n none (truncf (F := Ideal) .bf16 x bitsLt_bf16_f32) w (constant S2000x256 .f32 0x00000000#32) (ix2 p q)
      + broadcastTo S2000x256 b broadcasts_S1x256_S2000x256 (ix2 p q)) * broadcastTo S2000x256 sn broadcasts_S2000x1_S2000x256 (ix2 p q) = _
  rw [broadcastTo_1b_ab_apply, broadcastTo_a1_ab_apply]
  refine congrArg (fun z => (z + b (ix2 (0 : Fin 1) q)) * sn (ix2 p (0 : Fin 1))) ?_
  refine (Ideal.matmul_constant_zero_apply (φ₁ := .bf16) (φ₂ := .bf16) dot_S2000x128_S128x256_S2000x256_1_0_0_1_n_n none (truncf (F := Ideal) .bf16 x bitsLt_bf16_f32) w (ix2 p q)).trans ?_
  exact mm0_sum (φ₁ := .bf16) (φ₂ := .bf16) (truncf (F := Ideal) .bf16 x bitsLt_bf16_f32) w (ix2 p q)

/-- What layer 2's body stores, entry `(p, q)` of its block: the previous aggregate's row, scaled by the receiver norm
    and clipped below at zero, against column `q` of the weights, plus the bias, scaled by the row's sender norm. -/
theorem pay1_apply (x : Vec Ideal S2000x256 .f32) (rn : Vec Ideal S2000x1 .f32) (w : Vec Ideal S256x256 .bf16) (b : Vec Ideal S1x256 .f32) (sn : Vec Ideal S2000x1 .f32)
    (p : Fin 2000) (q : Fin 256) :
    k1_pay1 x rn w b sn (ix2 p q)
      = (∑ k : Fin 256, max (x (ix2 p k) * rn (ix2 p (0 : Fin 1))) (Ideal.ofBits .f32 0x00000000#32) * w (ix2 k q) + b (ix2 (0 : Fin 1) q)) * sn (ix2 p (0 : Fin 1)) := by
  unfold k1_pay1
  rw [shapeCast_self, shapeCast_self, shapeCast_self, shapeCast_self, shapeCast_self]
  show (matmul (F := Ideal) dot_S2000x256_S256x256_S2000x256_1_0_0_1_n_n none (truncf (F := Ideal) .bf16 (maximumf (mulf x (broadcastTo S2000x256 rn broadcasts_S2000x1_S2000x256)) (broadcast S2000x256 (Scalar.ofBits (F := Ideal) .f32 0x00000000#32))) bitsLt_bf16_f32) w (constant S2000x256 .f32 0x00000000#32) (ix2 p q)
      + broadcastTo S2000x256 b broadcasts_S1x256_S2000x256 (ix2 p q)) * broadcastTo S2000x256 sn broadcasts_S2000x1_S2000x256 (ix2 p q) = _
  rw [broadcastTo_1b_ab_apply, broadcastTo_a1_ab_apply]
  refine congrArg (fun z => (z + b (ix2 (0 : Fin 1) q)) * sn (ix2 p (0 : Fin 1))) ?_
  refine (Ideal.matmul_constant_zero_apply (φ₁ := .bf16) (φ₂ := .bf16) dot_S2000x256_S256x256_S2000x256_1_0_0_1_n_n none _ w (ix2 p q)).trans ?_
  refine (mm1_sum (φ₁ := .bf16) (φ₂ := .bf16) _ w (ix2 p q)).trans ?_
  refine Finset.sum_congr rfl fun k _ => ?_
  show max (x (ix2 p k) * broadcastTo S2000x256 rn broadcasts_S2000x1_S2000x256 (ix2 p k)) (Ideal.ofBits .f32 0x00000000#32) * w (ix2 k q) = _
  rw [broadcastTo_a1_ab_apply]

/-- What layer 3's body stores, entry `(p, q)` of its block: the previous aggregate's row, scaled by the receiver norm
    and clipped below at zero, against column `q` of the weights, plus the bias, scaled by the row's sender norm. -/
theorem pay2_apply (x : Vec Ideal S2000x256 .f32) (rn : Vec Ideal S2000x1 .f32) (w : Vec Ideal S256x128 .bf16) (b : Vec Ideal S1x128 .f32) (sn : Vec Ideal S2000x1 .f32)
    (p : Fin 2000) (q : Fin 128) :
    k2_pay1 x rn w b sn (ix2 p q)
      = (∑ k : Fin 256, max (x (ix2 p k) * rn (ix2 p (0 : Fin 1))) (Ideal.ofBits .f32 0x00000000#32) * w (ix2 k q) + b (ix2 (0 : Fin 1) q)) * sn (ix2 p (0 : Fin 1)) := by
  unfold k2_pay1
  rw [shapeCast_self, shapeCast_self, shapeCast_self, shapeCast_self, shapeCast_self]
  show (matmul (F := Ideal) dot_S2000x256_S256x128_S2000x128_1_0_0_1_n_n none (truncf (F := Ideal) .bf16 (maximumf (mulf x (broadcastTo S2000x256 rn broadcasts_S2000x1_S2000x256)) (broadcast S2000x256 (Scalar.ofBits (F := Ideal) .f32 0x00000000#32))) bitsLt_bf16_f32) w (constant S2000x128 .f32 0x00000000#32) (ix2 p q)
      + broadcastTo S2000x128 b broadcasts_S1x128_S2000x128 (ix2 p q)) * broadcastTo S2000x128 sn broadcasts_S2000x1_S2000x128 (ix2 p q) = _
  rw [broadcastTo_1b_ab_apply, broadcastTo_a1_ab_apply]
  refine congrArg (fun z => (z + b (ix2 (0 : Fin 1) q)) * sn (ix2 p (0 : Fin 1))) ?_
  refine (Ideal.matmul_constant_zero_apply (φ₁ := .bf16) (φ₂ := .bf16) dot_S2000x256_S256x128_S2000x128_1_0_0_1_n_n none _ w (ix2 p q)).trans ?_
  refine (mm2_sum (φ₁ := .bf16) (φ₂ := .bf16) _ w (ix2 p q)).trans ?_
  refine Finset.sum_congr rfl fun k _ => ?_
  show max (x (ix2 p k) * broadcastTo S2000x256 rn broadcasts_S2000x1_S2000x256 (ix2 p k)) (Ideal.ofBits .f32 0x00000000#32) * w (ix2 k q) = _
  rw [broadcastTo_a1_ab_apply]

end Cert.KernelIdeal.Dense

end
-- ==== Proof.Layer1.lean ====
/-
  Layer 1's call, as one function of the arrays it finds. The grid has 25 points; point `t` takes rows
  `2000·t … 2000·t + 1999` of the node arrays (the features and the sender-norm column), the whole weight
  matrix and the whole bias row, and writes back rows `2000·t …` of the output. What it writes is, entry by entry, the
  dense layer of those rows; the 25 row blocks tile the output array, so after the call the array holds the dense
  layer of the whole input, every row computed from that row alone.
-/
import proofs.«153455_j10694468567401_1_alg».proof.Proof.Gen.KernelIdeal.Frame
import proofs.«153455_j10694468567401_1_alg».proof.Proof.KernelDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Dense

theorem hz : (![0, 0] : Fin 2 → Nat) = fun _ => 0 := funext fun a => by fin_cases a <;> rfl

/-- The layer on whole arrays, entry by entry: row `i₀` of the input against column `i₁` of the weights, plus the bias, times the row's sender norm. -/
def arr (x : S50000x128.Idx → Elt Ideal .f32) (sn : S50000x1.Idx → Elt Ideal .f32) (w : S128x256.Idx → Elt Ideal .bf16) (b : S1x256.Idx → Elt Ideal .f32) : S50000x256.Idx → Elt Ideal .f32 :=
  fun i => (∑ k : Fin 128, x (ix2 ⟨(i 0).val, (i 0).isLt⟩ k) * w (ix2 k ⟨(i 1).val, (i 1).isLt⟩) + b (ix2 (0 : Fin 1) ⟨(i 1).val, (i 1).isLt⟩)) * sn (ix2 ⟨(i 0).val, (i 0).isLt⟩ (0 : Fin 1))

variable (V : (c : Dev nD) → (b : Ref sig .tc) → Buf (Elt Ideal) ((c : Thread nD τ).loc b))

/-- The printed index maps over the 25 grid points: the row-blocked windows move with the output's row block, the
    weights and the bias stay at block 0, and the output's row block stays below 25. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) ≤ 24
    ∧ win0_4.index t (1 : Fin 2) = 0 :=
  (by decide +kernel : ∀ t : Fin grid0.N, _)

/-- Every row block of the output is some grid point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-- What point `t` writes back is block `t` of the whole-array layer. -/
theorem flushed_eq (c : Dev nD) (t : Fin cfg0.N) :
    (dat0 V c).flushed 4 t = ((cfg0.win 4).blk t).view.read (Elt Ideal) (arr (V c main_arg0) (V c main_v10) (V c main_v15) (V c main_v16)) := by
  show (cfg0.win 4).cut (grid0.coords t) ((dat0 V c).after 4 t) = _
  rw [after0_4]
  unfold out0_4
  rw [View.canon_unit_zero hz]
  simp only [View.ld_unit_zero (S := S2000x128) hz, View.ld_unit_zero (S := S2000x1) hz, View.ld_unit_zero (S := S128x256) hz, View.ld_unit_zero (S := S1x256) hz]
  obtain ⟨f0, f1, f2, f3, f4, f5, f6, f7, f8, f9⟩ := idx_facts t
  funext j
  obtain ⟨p, q, rfl⟩ : ∃ (p : Fin 2000) (q : Fin 256), j = ix2 p q := ⟨j 0, j 1, eq_ix2 j⟩
  refine (pay0_apply _ _ _ _ p q).trans ?_
  show _ = arr (V c main_arg0) (V c main_v10) (V c main_v15) (V c main_v16) (((cfg0.win 4).blk t).view.emb (ix2 p q))
  generalize he : ((cfg0.win 4).blk t).view.emb (ix2 p q) = e
  have e0 : (e 0).val = win0_4.index t (0 : Fin 2) * 2000 + 1 * p.val := by rw [← he]; rfl
  have e1 : (e 1).val = win0_4.index t (1 : Fin 2) * 256 + 1 * q.val := by rw [← he]; rfl
  have hx : ∀ k : Fin 128, iblk0 V c 0 t (ix2 p k) = V c main_arg0 (ix2 ⟨(e 0).val, (e 0).isLt⟩ k) := fun k => by
    show V c main_arg0 (((cfg0.win 0).blk t).view.emb (ix2 p k)) = V c main_arg0 (ix2 ⟨(e 0).val, (e 0).isLt⟩ k)
    refine congrArg (V c main_arg0) (funext fun a => Fin.ext ?_)
    match a with
    | ⟨0, _⟩ => show win0_0.index t (0 : Fin 2) * 2000 + 1 * p.val = (e 0).val; omega
    | ⟨1, _⟩ => show win0_0.index t (1 : Fin 2) * 128 + 1 * k.val = k.val; omega
  have hsn : iblk0 V c 1 t (ix2 p (0 : Fin 1)) = V c main_v10 (ix2 ⟨(e 0).val, (e 0).isLt⟩ (0 : Fin 1)) := by
    show V c main_v10 (((cfg0.win 1).blk t).view.emb (ix2 p (0 : Fin 1))) = V c main_v10 (ix2 ⟨(e 0).val, (e 0).isLt⟩ (0 : Fin 1))
    refine congrArg (V c main_v10) (funext fun a => Fin.ext ?_)
    match a with
    | ⟨0, _⟩ => show win0_1.index t (0 : Fin 2) * 2000 + 1 * p.val = (e 0).val; omega
    | ⟨1, _⟩ => show win0_1.index t (1 : Fin 2) * 1 + 1 * 0 = 0; omega
  have hw : ∀ k : Fin 128, iblk0 V c 2 t (ix2 k q) = V c main_v15 (ix2 k ⟨(e 1).val, (e 1).isLt⟩) := fun k => by
    show V c main_v15 (((cfg0.win 2).blk t).view.emb (ix2 k q)) = V c main_v15 (ix2 k ⟨(e 1).val, (e 1).isLt⟩)
    refine congrArg (V c main_v15) (funext fun a => Fin.ext ?_)
    match a with
    | ⟨0, _⟩ => show win0_2.index t (0 : Fin 2) * 128 + 1 * k.val = k.val; omega
    | ⟨1, _⟩ => show win0_2.index t (1 : Fin 2) * 256 + 1 * q.val = (e 1).val; omega
  have hb : iblk0 V c 3 t (ix2 (0 : Fin 1) q) = V c main_v16 (ix2 (0 : Fin 1) ⟨(e 1).val, (e 1).isLt⟩) := by
    show V c main_v16 (((cfg0.win 3).blk t).view.emb (ix2 (0 : Fin 1) q)) = V c main_v16 (ix2 (0 : Fin 1) ⟨(e 1).val, (e 1).isLt⟩)
    refine congrArg (V c main_v16) (funext fun a => Fin.ext ?_)
    match a with
    | ⟨0, _⟩ => show win0_3.index t (0 : Fin 2) * 1 + 1 * 0 = 0; omega
    | ⟨1, _⟩ => show win0_3.index t (1 : Fin 2) * 256 + 1 * q.val = (e 1).val; omega
  rw [hb, hsn]
  simp only [hx, hw]
  rfl

/-- An index of the output array is in point `t`'s block iff each coordinate is in the block's range on its axis. -/
theorem mem_blk (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v21).slice (win0_4.rect t)).set ↔ _
  rw [View.set_slice_whole, Rect.mem_set_unit]
  exact Iff.rfl

/-- The 25 row blocks cover the output array: row `r` is in the block of point `r / 2000`. -/
theorem cover (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- After the call the output array holds the layer of the arrays the call found. -/
theorem final (c : Dev nD) : (dat0 V c).arrAt 4 cfg0.N = arr (V c main_arg0) (V c main_v10) (V c main_v15) (V c main_v16) :=
  (dat0 V c).arrAt_eq_of_cover 4 _ (fun t _ => flushed_eq V c t) cover

end Cert.KernelIdeal.Layer1

end
-- ==== Proof.Layer2.lean ====
/-
  Layer 2's call, as one function of the arrays it finds. The grid has 25 points; point `t` takes rows
  `2000·t … 2000·t + 1999` of the node arrays (the features, the receiver-norm column and the sender-norm column), the whole weight
  matrix and the whole bias row, and writes back rows `2000·t …` of the output. What it writes is, entry by entry, the
  dense layer of those rows; the 25 row blocks tile the output array, so after the call the array holds the dense
  layer of the whole input, every row computed from that row alone.
-/
import proofs.«153455_j10694468567401_1_alg».proof.Proof.Gen.KernelIdeal.Frame
import proofs.«153455_j10694468567401_1_alg».proof.Proof.KernelDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Dense

theorem hz : (![0, 0] : Fin 2 → Nat) = fun _ => 0 := funext fun a => by fin_cases a <;> rfl

/-- The layer on whole arrays, entry by entry: row `i₀` of the input against column `i₁` of the weights, plus the bias, times the row's sender norm. -/
def arr (x : S50000x256.Idx → Elt Ideal .f32) (rn : S50000x1.Idx → Elt Ideal .f32) (sn : S50000x1.Idx → Elt Ideal .f32) (w : S256x256.Idx → Elt Ideal .bf16) (b : S1x256.Idx → Elt Ideal .f32) : S50000x256.Idx → Elt Ideal .f32 :=
  fun i => (∑ k : Fin 256, max (x (ix2 ⟨(i 0).val, (i 0).isLt⟩ k) * rn (ix2 ⟨(i 0).val, (i 0).isLt⟩ (0 : Fin 1))) (Ideal.ofBits .f32 0x00000000#32) * w (ix2 k ⟨(i 1).val, (i 1).isLt⟩) + b (ix2 (0 : Fin 1) ⟨(i 1).val, (i 1).isLt⟩)) * sn (ix2 ⟨(i 0).val, (i 0).isLt⟩ (0 : Fin 1))

variable (V : (c : Dev nD) → (b : Ref sig .tc) → Buf (Elt Ideal) ((c : Thread nD τ).loc b))

/-- The printed index maps over the 25 grid points: the row-blocked windows move with the output's row block, the
    weights and the bias stay at block 0, and the output's row block stays below 25. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) ≤ 24
    ∧ win1_5.index t (1 : Fin 2) = 0 :=
  (by decide +kernel : ∀ t : Fin grid1.N, _)

/-- Every row block of the output is some grid point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- What point `t` writes back is block `t` of the whole-array layer. -/
theorem flushed_eq (c : Dev nD) (t : Fin cfg1.N) :
    (dat1 V c).flushed 5 t = ((cfg1.win 5).blk t).view.read (Elt Ideal) (arr (V c main_v31) (V c main_v14) (V c main_v10) (V c main_v17) (V c main_v18)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S256x256) hz, View.ld_unit_zero (S := S1x256) hz]
  obtain ⟨f0, f1, f2, f3, f4, f5, f6, f7, f8, f9, f10, f11⟩ := idx_facts t
  funext j
  obtain ⟨p, q, rfl⟩ : ∃ (p : Fin 2000) (q : Fin 256), j = ix2 p q := ⟨j 0, j 1, eq_ix2 j⟩
  refine (pay1_apply _ _ _ _ _ p q).trans ?_
  show _ = arr (V c main_v31) (V c main_v14) (V c main_v10) (V c main_v17) (V c main_v18) (((cfg1.win 5).blk t).view.emb (ix2 p q))
  generalize he : ((cfg1.win 5).blk t).view.emb (ix2 p q) = e
  have e0 : (e 0).val = win1_5.index t (0 : Fin 2) * 2000 + 1 * p.val := by rw [← he]; rfl
  have e1 : (e 1).val = win1_5.index t (1 : Fin 2) * 256 + 1 * q.val := by rw [← he]; rfl
  have hx : ∀ k : Fin 256, iblk1 V c 0 t (ix2 p k) = V c main_v31 (ix2 ⟨(e 0).val, (e 0).isLt⟩ k) := fun k => by
    show V c main_v31 (((cfg1.win 0).blk t).view.emb (ix2 p k)) = V c main_v31 (ix2 ⟨(e 0).val, (e 0).isLt⟩ k)
    refine congrArg (V c main_v31) (funext fun a => Fin.ext ?_)
    match a with
    | ⟨0, _⟩ => show win1_0.index t (0 : Fin 2) * 2000 + 1 * p.val = (e 0).val; omega
    | ⟨1, _⟩ => show win1_0.index t (1 : Fin 2) * 256 + 1 * k.val = k.val; omega
  have hrn : iblk1 V c 1 t (ix2 p (0 : Fin 1)) = V c main_v14 (ix2 ⟨(e 0).val, (e 0).isLt⟩ (0 : Fin 1)) := by
    show V c main_v14 (((cfg1.win 1).blk t).view.emb (ix2 p (0 : Fin 1))) = V c main_v14 (ix2 ⟨(e 0).val, (e 0).isLt⟩ (0 : Fin 1))
    refine congrArg (V c main_v14) (funext fun a => Fin.ext ?_)
    match a with
    | ⟨0, _⟩ => show win1_1.index t (0 : Fin 2) * 2000 + 1 * p.val = (e 0).val; omega
    | ⟨1, _⟩ => show win1_1.index t (1 : Fin 2) * 1 + 1 * 0 = 0; omega
  have hsn : iblk1 V c 2 t (ix2 p (0 : Fin 1)) = V c main_v10 (ix2 ⟨(e 0).val, (e 0).isLt⟩ (0 : Fin 1)) := by
    show V c main_v10 (((cfg1.win 2).blk t).view.emb (ix2 p (0 : Fin 1))) = V c main_v10 (ix2 ⟨(e 0).val, (e 0).isLt⟩ (0 : Fin 1))
    refine congrArg (V c main_v10) (funext fun a => Fin.ext ?_)
    match a with
    | ⟨0, _⟩ => show win1_2.index t (0 : Fin 2) * 2000 + 1 * p.val = (e 0).val; omega
    | ⟨1, _⟩ => show win1_2.index t (1 : Fin 2) * 1 + 1 * 0 = 0; omega
  have hw : ∀ k : Fin 256, iblk1 V c 3 t (ix2 k q) = V c main_v17 (ix2 k ⟨(e 1).val, (e 1).isLt⟩) := fun k => by
    show V c main_v17 (((cfg1.win 3).blk t).view.emb (ix2 k q)) = V c main_v17 (ix2 k ⟨(e 1).val, (e 1).isLt⟩)
    refine congrArg (V c main_v17) (funext fun a => Fin.ext ?_)
    match a with
    | ⟨0, _⟩ => show win1_3.index t (0 : Fin 2) * 256 + 1 * k.val = k.val; omega
    | ⟨1, _⟩ => show win1_3.index t (1 : Fin 2) * 256 + 1 * q.val = (e 1).val; omega
  have hb : iblk1 V c 4 t (ix2 (0 : Fin 1) q) = V c main_v18 (ix2 (0 : Fin 1) ⟨(e 1).val, (e 1).isLt⟩) := by
    show V c main_v18 (((cfg1.win 4).blk t).view.emb (ix2 (0 : Fin 1) q)) = V c main_v18 (ix2 (0 : Fin 1) ⟨(e 1).val, (e 1).isLt⟩)
    refine congrArg (V c main_v18) (funext fun a => Fin.ext ?_)
    match a with
    | ⟨0, _⟩ => show win1_4.index t (0 : Fin 2) * 1 + 1 * 0 = 0; omega
    | ⟨1, _⟩ => show win1_4.index t (1 : Fin 2) * 256 + 1 * q.val = (e 1).val; omega
  rw [hb, hsn, hrn]
  simp only [hx, hw]
  rfl

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v32).slice (win1_5.rect t)).set ↔ _
  rw [View.set_slice_whole, Rect.mem_set_unit]
  exact Iff.rfl

/-- The 25 row blocks cover the output array: row `r` is in the block of point `r / 2000`. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- After the call the output array holds the layer of the arrays the call found. -/
theorem final (c : Dev nD) : (dat1 V c).arrAt 5 cfg1.N = arr (V c main_v31) (V c main_v14) (V c main_v10) (V c main_v17) (V c main_v18) :=
  (dat1 V c).arrAt_eq_of_cover 5 _ (fun t _ => flushed_eq V c t) cover

end Cert.KernelIdeal.Layer2

end
-- ==== Proof.Layer3.lean ====
/-
  Layer 3's call, as one function of the arrays it finds. The grid has 25 points; point `t` takes rows
  `2000·t … 2000·t + 1999` of the node arrays (the features, the receiver-norm column and the sender-norm column), the whole weight
  matrix and the whole bias row, and writes back rows `2000·t …` of the output. What it writes is, entry by entry, the
  dense layer of those rows; the 25 row blocks tile the output array, so after the call the array holds the dense
  layer of the whole input, every row computed from that row alone.
-/
import proofs.«153455_j10694468567401_1_alg».proof.Proof.Gen.KernelIdeal.Frame
import proofs.«153455_j10694468567401_1_alg».proof.Proof.KernelDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Dense

theorem hz : (![0, 0] : Fin 2 → Nat) = fun _ => 0 := funext fun a => by fin_cases a <;> rfl

/-- The layer on whole arrays, entry by entry: row `i₀` of the input against column `i₁` of the weights, plus the bias, times the row's sender norm. -/
def arr (x : S50000x256.Idx → Elt Ideal .f32) (rn : S50000x1.Idx → Elt Ideal .f32) (sn : S50000x1.Idx → Elt Ideal .f32) (w : S256x128.Idx → Elt Ideal .bf16) (b : S1x128.Idx → Elt Ideal .f32) : S50000x128.Idx → Elt Ideal .f32 :=
  fun i => (∑ k : Fin 256, max (x (ix2 ⟨(i 0).val, (i 0).isLt⟩ k) * rn (ix2 ⟨(i 0).val, (i 0).isLt⟩ (0 : Fin 1))) (Ideal.ofBits .f32 0x00000000#32) * w (ix2 k ⟨(i 1).val, (i 1).isLt⟩) + b (ix2 (0 : Fin 1) ⟨(i 1).val, (i 1).isLt⟩)) * sn (ix2 ⟨(i 0).val, (i 0).isLt⟩ (0 : Fin 1))

variable (V : (c : Dev nD) → (b : Ref sig .tc) → Buf (Elt Ideal) ((c : Thread nD τ).loc b))

/-- The printed index maps over the 25 grid points: the row-blocked windows move with the output's row block, the
    weights and the bias stay at block 0, and the output's row block stays below 25. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) ≤ 24
    ∧ win2_5.index t (1 : Fin 2) = 0 :=
  (by decide +kernel : ∀ t : Fin grid2.N, _)

/-- Every row block of the output is some grid point's. -/
theorem idx_onto : ∀ q0 : Fin 25, ∃ t : Fin cfg2.N, win2_5.index t = ![q0.val, 0] :=
  (by decide +kernel : ∀ q0 : Fin 25, ∃ t : Fin grid2.N, win2_5.index t = ![q0.val, 0])

/-- What point `t` writes back is block `t` of the whole-array layer. -/
theorem flushed_eq (c : Dev nD) (t : Fin cfg2.N) :
    (dat2 V c).flushed 5 t = ((cfg2.win 5).blk t).view.read (Elt Ideal) (arr (V c main_v42) (V c main_v14) (V c main_v10) (V c main_v19) (V c main_v20)) := by
  show (cfg2.win 5).cut (grid2.coords t) ((dat2 V c).after 5 t) = _
  rw [after2_5]
  unfold out2_5
  rw [View.canon_unit_zero hz]
  simp only [View.ld_unit_zero (S := S2000x256) hz, View.ld_unit_zero (S := S2000x1) hz, View.ld_unit_zero (S := S256x128) hz, View.ld_unit_zero (S := S1x128) hz]
  obtain ⟨f0, f1, f2, f3, f4, f5, f6, f7, f8, f9, f10, f11⟩ := idx_facts t
  funext j
  obtain ⟨p, q, rfl⟩ : ∃ (p : Fin 2000) (q : Fin 128), j = ix2 p q := ⟨j 0, j 1, eq_ix2 j⟩
  refine (pay2_apply _ _ _ _ _ p q).trans ?_
  show _ = arr (V c main_v42) (V c main_v14) (V c main_v10) (V c main_v19) (V c main_v20) (((cfg2.win 5).blk t).view.emb (ix2 p q))
  generalize he : ((cfg2.win 5).blk t).view.emb (ix2 p q) = e
  have e0 : (e 0).val = win2_5.index t (0 : Fin 2) * 2000 + 1 * p.val := by rw [← he]; rfl
  have e1 : (e 1).val = win2_5.index t (1 : Fin 2) * 128 + 1 * q.val := by rw [← he]; rfl
  have hx : ∀ k : Fin 256, iblk2 V c 0 t (ix2 p k) = V c main_v42 (ix2 ⟨(e 0).val, (e 0).isLt⟩ k) := fun k => by
    show V c main_v42 (((cfg2.win 0).blk t).view.emb (ix2 p k)) = V c main_v42 (ix2 ⟨(e 0).val, (e 0).isLt⟩ k)
    refine congrArg (V c main_v42) (funext fun a => Fin.ext ?_)
    match a with
    | ⟨0, _⟩ => show win2_0.index t (0 : Fin 2) * 2000 + 1 * p.val = (e 0).val; omega
    | ⟨1, _⟩ => show win2_0.index t (1 : Fin 2) * 256 + 1 * k.val = k.val; omega
  have hrn : iblk2 V c 1 t (ix2 p (0 : Fin 1)) = V c main_v14 (ix2 ⟨(e 0).val, (e 0).isLt⟩ (0 : Fin 1)) := by
    show V c main_v14 (((cfg2.win 1).blk t).view.emb (ix2 p (0 : Fin 1))) = V c main_v14 (ix2 ⟨(e 0).val, (e 0).isLt⟩ (0 : Fin 1))
    refine congrArg (V c main_v14) (funext fun a => Fin.ext ?_)
    match a with
    | ⟨0, _⟩ => show win2_1.index t (0 : Fin 2) * 2000 + 1 * p.val = (e 0).val; omega
    | ⟨1, _⟩ => show win2_1.index t (1 : Fin 2) * 1 + 1 * 0 = 0; omega
  have hsn : iblk2 V c 2 t (ix2 p (0 : Fin 1)) = V c main_v10 (ix2 ⟨(e 0).val, (e 0).isLt⟩ (0 : Fin 1)) := by
    show V c main_v10 (((cfg2.win 2).blk t).view.emb (ix2 p (0 : Fin 1))) = V c main_v10 (ix2 ⟨(e 0).val, (e 0).isLt⟩ (0 : Fin 1))
    refine congrArg (V c main_v10) (funext fun a => Fin.ext ?_)
    match a with
    | ⟨0, _⟩ => show win2_2.index t (0 : Fin 2) * 2000 + 1 * p.val = (e 0).val; omega
    | ⟨1, _⟩ => show win2_2.index t (1 : Fin 2) * 1 + 1 * 0 = 0; omega
  have hw : ∀ k : Fin 256, iblk2 V c 3 t (ix2 k q) = V c main_v19 (ix2 k ⟨(e 1).val, (e 1).isLt⟩) := fun k => by
    show V c main_v19 (((cfg2.win 3).blk t).view.emb (ix2 k q)) = V c main_v19 (ix2 k ⟨(e 1).val, (e 1).isLt⟩)
    refine congrArg (V c main_v19) (funext fun a => Fin.ext ?_)
    match a with
    | ⟨0, _⟩ => show win2_3.index t (0 : Fin 2) * 256 + 1 * k.val = k.val; omega
    | ⟨1, _⟩ => show win2_3.index t (1 : Fin 2) * 128 + 1 * q.val = (e 1).val; omega
  have hb : iblk2 V c 4 t (ix2 (0 : Fin 1) q) = V c main_v20 (ix2 (0 : Fin 1) ⟨(e 1).val, (e 1).isLt⟩) := by
    show V c main_v20 (((cfg2.win 4).blk t).view.emb (ix2 (0 : Fin 1) q)) = V c main_v20 (ix2 (0 : Fin 1) ⟨(e 1).val, (e 1).isLt⟩)
    refine congrArg (V c main_v20) (funext fun a => Fin.ext ?_)
    match a with
    | ⟨0, _⟩ => show win2_4.index t (0 : Fin 2) * 1 + 1 * 0 = 0; omega
    | ⟨1, _⟩ => show win2_4.index t (1 : Fin 2) * 128 + 1 * q.val = (e 1).val; omega
  rw [hb, hsn, hrn]
  simp only [hx, hw]
  rfl

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v43).slice (win2_5.rect t)).set ↔ _
  rw [View.set_slice_whole, Rect.mem_set_unit]
  exact Iff.rfl

/-- The 25 row blocks cover the output array: row `r` is in the block of point `r / 2000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After the call the output array holds the layer of the arrays the call found. -/
theorem final (c : Dev nD) : (dat2 V c).arrAt 5 cfg2.N = arr (V c main_v42) (V c main_v14) (V c main_v10) (V c main_v19) (V c main_v20) :=
  (dat2 V c).arrAt_eq_of_cover 5 _ (fun t _ => flushed_eq V c t) cover

end Cert.KernelIdeal.Layer3

end
-- ==== Proof.KernelFold.lean ====
/-
  The kernel's result as one term of its arguments, read back through the segment boundaries. At each boundary only a
  few buffers matter: the two index arrays, the two degree-norm columns, the rounded weights and the bias rows, and the
  layer output or aggregate in flight. A stretch of host operations computes the next aggregate from the layer output
  (gather along the senders, scatter-add onto the receivers) and leaves every other buffer alone; a layer's call writes
  its output array (the layer of the arrays it found: the three `Layer` files) and leaves its inputs and every
  buffer outside it alone.
-/
import proofs.«153455_j10694468567401_1_alg».proof.Proof.Gen.KernelIdeal.Frame
import proofs.«153455_j10694468567401_1_alg».proof.Proof.Layer1
import proofs.«153455_j10694468567401_1_alg».proof.Proof.Layer2
import proofs.«153455_j10694468567401_1_alg».proof.Proof.Layer3
import Idealize.ShloMosaic.Lib.StableHlo.Run
import Idealize.ShloMosaic.PureOps.Ideal

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen

/-- The degree-norm column of an index array: count how often each node occurs, clip the count below at one, take the
    reciprocal square root, as a `[50000, 1]` column. -/
def normCol (s : IVec S800000 32) : FVec Ideal S50000x1 .f32 :=
  broadcastInDim S50000x1 ![0] bcast_S50000_S50000x1_0 (Host.rsqrt (maximumf
    (Host.scatterAdd scatter_S50000_S800000x1_S800000_n_0_0_1 (broadcastInDim S50000 ![] bcast_S_S50000 (constant S_ .f32 0x00000000#32))
      (broadcastInDim S800000x1 ![0] bcast_S800000_S800000x1_0 s) (broadcastInDim S800000 ![] bcast_S_S800000 (constant S_ .f32 0x3F800000#32)))
    (broadcastInDim S50000 ![] bcast_S_S50000 (constant S_ .f32 0x3F800000#32))))

/-- The senders as gather indices: a negative index counts from the end. -/
def wrapIdx (s : IVec S800000 32) : IVec S800000x1 32 :=
  broadcastInDim S800000x1 ![0] bcast_S800000_S800000x1_0 (select (cmpi .slt s (broadcastInDim S800000 ![] bcast_S_S800000 (constantI S_ 32 0#32)))
    (addi s (broadcastInDim S800000 ![] bcast_S_S800000 (constantI S_ 32 50000#32))) s)

/-- The edge aggregation of a `[50000, 256]` array: gather the senders' rows, add each onto its receiver's row. -/
def agg256 (h : FVec Ideal S50000x256 .f32) (s r : IVec S800000 32) : FVec Ideal S50000x256 .f32 :=
  Host.scatterAdd scatter_S50000x256_S800000x1_S800000x256_1_0_0_1 (broadcastInDim S50000x256 ![] bcast_S_S50000x256 (constant S_ .f32 0x00000000#32))
    (broadcastInDim S800000x1 ![0] bcast_S800000_S800000x1_0 r) (Host.gather gather_S50000x256_S800000x1_S800000x256_1_0_n_n_0_1_1256 h (wrapIdx s))

/-- The same on a `[50000, 128]` array. -/
def agg128 (h : FVec Ideal S50000x128 .f32) (s r : IVec S800000 32) : FVec Ideal S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 r) (Host.gather gather_S50000x128_S800000x1_S800000x128_1_0_n_n_0_1_1128 h (wrapIdx s))

/-- An aggregate scaled, row by row, by the receiver norm. -/
def scaled128 (g : FVec Ideal S50000x128 .f32) (rnc : FVec Ideal S50000x1 .f32) : FVec Ideal S50000x128 .f32 :=
  mulf g (broadcastInDim S50000x128 ![0, 1] bcast_S50000x1_S50000x128_0_1 rnc)

/-- Clipped below at zero. -/
def clip128 (g : FVec Ideal S50000x128 .f32) : FVec Ideal S50000x128 .f32 :=
  maximumf g (broadcastInDim S50000x128 ![] bcast_S_S50000x128 (constant S_ .f32 0x00000000#32))

/-! ## The stretches of host operations, over any contents they start from -/

theorem pre_arg0 (X : Valuation τ sig (Elt Ideal)) : StableHlo.after (hostOps0 (F := Ideal)) X (Proc.devRef .tc main_arg0) = X (Proc.devRef .tc main_arg0) := by
  after_results <;> rfl
theorem pre_arg1 (X : Valuation τ sig (Elt Ideal)) : StableHlo.after (hostOps0 (F := Ideal)) X (Proc.devRef .tc main_arg1) = X (Proc.devRef .tc main_arg1) := by
  after_results <;> rfl
theorem pre_arg2 (X : Valuation τ sig (Elt Ideal)) : StableHlo.after (hostOps0 (F := Ideal)) X (Proc.devRef .tc main_arg2) = X (Proc.devRef .tc main_arg2) := by
  after_results <;> rfl

theorem pre_v10 (X : Valuation τ sig (Elt Ideal)) : StableHlo.after (hostOps0 (F := Ideal)) X (Proc.devRef .tc main_v10) = normCol (X (Proc.devRef .tc main_arg1)) := by
  after_results <;> rfl

theorem pre_v14 (X : Valuation τ sig (Elt Ideal)) : StableHlo.after (hostOps0 (F := Ideal)) X (Proc.devRef .tc main_v14) = normCol (X (Proc.devRef .tc main_arg2)) := by
  after_results <;> rfl

theorem pre_v15 (X : Valuation τ sig (Elt Ideal)) : StableHlo.after (hostOps0 (F := Ideal)) X (Proc.devRef .tc main_v15) = truncf (F := Ideal) .bf16 (X (Proc.devRef .tc main_arg3)) bitsLt_bf16_f32 := by
  after_results <;> rfl

theorem pre_v16 (X : Valuation τ sig (Elt Ideal)) : StableHlo.after (hostOps0 (F := Ideal)) X (Proc.devRef .tc main_v16) = shapeCast S1x256 (X (Proc.devRef .tc main_arg4)) shapeCasts_S256_S1x256 := by
  after_results <;> rfl

theorem pre_v17 (X : Valuation τ sig (Elt Ideal)) : StableHlo.after (hostOps0 (F := Ideal)) X (Proc.devRef .tc main_v17) = truncf (F := Ideal) .bf16 (X (Proc.devRef .tc main_arg5)) bitsLt_bf16_f32 := by
  after_results <;> rfl

theorem pre_v18 (X : Valuation τ sig (Elt Ideal)) : StableHlo.after (hostOps0 (F := Ideal)) X (Proc.devRef .tc main_v18) = shapeCast S1x256 (X (Proc.devRef .tc main_arg6)) shapeCasts_S256_S1x256 := by
  after_results <;> rfl

theorem pre_v19 (X : Valuation τ sig (Elt Ideal)) : StableHlo.after (hostOps0 (F := Ideal)) X (Proc.devRef .tc main_v19) = truncf (F := Ideal) .bf16 (X (Proc.devRef .tc main_arg7)) bitsLt_bf16_f32 := by
  after_results <;> rfl

theorem pre_v20 (X : Valuation τ sig (Elt Ideal)) : StableHlo.after (hostOps0 (F := Ideal)) X (Proc.devRef .tc main_v20) = shapeCast S1x128 (X (Proc.devRef .tc main_arg8)) shapeCasts_S128_S1x128 := by
  after_results <;> rfl

theorem mid1_v31 (X : Valuation τ sig (Elt Ideal)) : StableHlo.after (hostOps1 (F := Ideal)) X (Proc.devRef .tc main_v31) = agg256 (X (Proc.devRef .tc main_v21)) (X (Proc.devRef .tc main_arg1)) (X (Proc.devRef .tc main_arg2)) := by
  after_results <;> rfl

theorem mid1_v14 (X : Valuation τ sig (Elt Ideal)) : StableHlo.after (hostOps1 (F := Ideal)) X (Proc.devRef .tc main_v14) = X (Proc.devRef .tc main_v14) := by
  after_results <;> rfl
theorem mid1_v10 (X : Valuation τ sig (Elt Ideal)) : StableHlo.after (hostOps1 (F := Ideal)) X (Proc.devRef .tc main_v10) = X (Proc.devRef .tc main_v10) := by
  after_results <;> rfl
theorem mid1_v17 (X : Valuation τ sig (Elt Ideal)) : StableHlo.after (hostOps1 (F := Ideal)) X (Proc.devRef .tc main_v17) = X (Proc.devRef .tc main_v17) := by
  after_results <;> rfl
theorem mid1_v18 (X : Valuation τ sig (Elt Ideal)) : StableHlo.after (hostOps1 (F := Ideal)) X (Proc.devRef .tc main_v18) = X (Proc.devRef .tc main_v18) := by
  after_results <;> rfl
theorem mid1_v19 (X : Valuation τ sig (Elt Ideal)) : StableHlo.after (hostOps1 (F := Ideal)) X (Proc.devRef .tc main_v19) = X (Proc.devRef .tc main_v19) := by
  after_results <;> rfl
theorem mid1_v20 (X : Valuation τ sig (Elt Ideal)) : StableHlo.after (hostOps1 (F := Ideal)) X (Proc.devRef .tc main_v20) = X (Proc.devRef .tc main_v20) := by
  after_results <;> rfl
theorem mid1_arg1 (X : Valuation τ sig (Elt Ideal)) : StableHlo.after (hostOps1 (F := Ideal)) X (Proc.devRef .tc main_arg1) = X (Proc.devRef .tc main_arg1) := by
  after_results <;> rfl
theorem mid1_arg2 (X : Valuation τ sig (Elt Ideal)) : StableHlo.after (hostOps1 (F := Ideal)) X (Proc.devRef .tc main_arg2) = X (Proc.devRef .tc main_arg2) := by
  after_results <;> rfl

theorem mid2_v42 (X : Valuation τ sig (Elt Ideal)) : StableHlo.after (hostOps2 (F := Ideal)) X (Proc.devRef .tc main_v42) = agg256 (X (Proc.devRef .tc main_v32)) (X (Proc.devRef .tc main_arg1)) (X (Proc.devRef .tc main_arg2)) := by
  after_results <;> rfl

theorem mid2_v14 (X : Valuation τ sig (Elt Ideal)) : StableHlo.after (hostOps2 (F := Ideal)) X (Proc.devRef .tc main_v14) = X (Proc.devRef .tc main_v14) := by
  after_results <;> rfl
theorem mid2_v10 (X : Valuation τ sig (Elt Ideal)) : StableHlo.after (hostOps2 (F := Ideal)) X (Proc.devRef .tc main_v10) = X (Proc.devRef .tc main_v10) := by
  after_results <;> rfl
theorem mid2_v19 (X : Valuation τ sig (Elt Ideal)) : StableHlo.after (hostOps2 (F := Ideal)) X (Proc.devRef .tc main_v19) = X (Proc.devRef .tc main_v19) := by
  after_results <;> rfl
theorem mid2_v20 (X : Valuation τ sig (Elt Ideal)) : StableHlo.after (hostOps2 (F := Ideal)) X (Proc.devRef .tc main_v20) = X (Proc.devRef .tc main_v20) := by
  after_results <;> rfl
theorem mid2_arg1 (X : Valuation τ sig (Elt Ideal)) : StableHlo.after (hostOps2 (F := Ideal)) X (Proc.devRef .tc main_arg1) = X (Proc.devRef .tc main_arg1) := by
  after_results <;> rfl
theorem mid2_arg2 (X : Valuation τ sig (Elt Ideal)) : StableHlo.after (hostOps2 (F := Ideal)) X (Proc.devRef .tc main_arg2) = X (Proc.devRef .tc main_arg2) := by
  after_results <;> rfl

theorem post_v55 (X : Valuation τ sig (Elt Ideal)) : StableHlo.after (hostOps3 (F := Ideal)) X (Proc.devRef .tc main_v55) = scaled128 (agg128 (X (Proc.devRef .tc main_v43)) (X (Proc.devRef .tc main_arg1)) (X (Proc.devRef .tc main_arg2))) (X (Proc.devRef .tc main_v14)) := by
  after_results_simp <;> rfl

theorem last_v56 (X : Valuation τ sig (Elt Ideal)) : StableHlo.after (hostOps3_1 (F := Ideal)) X (Proc.devRef .tc main_v56) = clip128 (X (Proc.devRef .tc main_v55)) := by
  after_results <;> rfl

/-! ## The kernel's value, named stage by stage -/

/-- The first layer's output. -/
def h1 (a0 : FVec Ideal S50000x128 .f32) (a1 a2 : IVec S800000 32) (a3 : FVec Ideal S128x256 .f32) (a4 : FVec Ideal S256 .f32) (a5 : FVec Ideal S256x256 .f32) (a6 : FVec Ideal S256 .f32) (a7 : FVec Ideal S256x128 .f32) (a8 : FVec Ideal S128 .f32) : FVec Ideal S50000x256 .f32 :=
  Layer1.arr a0 (normCol a1) (truncf (F := Ideal) .bf16 a3 bitsLt_bf16_f32) (shapeCast S1x256 a4 shapeCasts_S256_S1x256)
/-- The second layer's output, from the first aggregate. -/
def h2 (a0 : FVec Ideal S50000x128 .f32) (a1 a2 : IVec S800000 32) (a3 : FVec Ideal S128x256 .f32) (a4 : FVec Ideal S256 .f32) (a5 : FVec Ideal S256x256 .f32) (a6 : FVec Ideal S256 .f32) (a7 : FVec Ideal S256x128 .f32) (a8 : FVec Ideal S128 .f32) : FVec Ideal S50000x256 .f32 :=
  Layer2.arr (agg256 (h1 a0 a1 a2 a3 a4 a5 a6 a7 a8) a1 a2) (normCol a2) (normCol a1) (truncf (F := Ideal) .bf16 a5 bitsLt_bf16_f32) (shapeCast S1x256 a6 shapeCasts_S256_S1x256)
/-- The third layer's output, from the second aggregate. -/
def h3 (a0 : FVec Ideal S50000x128 .f32) (a1 a2 : IVec S800000 32) (a3 : FVec Ideal S128x256 .f32) (a4 : FVec Ideal S256 .f32) (a5 : FVec Ideal S256x256 .f32) (a6 : FVec Ideal S256 .f32) (a7 : FVec Ideal S256x128 .f32) (a8 : FVec Ideal S128 .f32) : FVec Ideal S50000x128 .f32 :=
  Layer3.arr (agg256 (h2 a0 a1 a2 a3 a4 a5 a6 a7 a8) a1 a2) (normCol a2) (normCol a1) (truncf (F := Ideal) .bf16 a7 bitsLt_bf16_f32) (shapeCast S1x128 a8 shapeCasts_S128_S1x128)
/-- The result: the third aggregate scaled by the receiver norm and clipped below at zero. -/
def out (a0 : FVec Ideal S50000x128 .f32) (a1 a2 : IVec S800000 32) (a3 : FVec Ideal S128x256 .f32) (a4 : FVec Ideal S256 .f32) (a5 : FVec Ideal S256x256 .f32) (a6 : FVec Ideal S256 .f32) (a7 : FVec Ideal S256x128 .f32) (a8 : FVec Ideal S128 .f32) : FVec Ideal S50000x128 .f32 :=
  clip128 (scaled128 (agg128 (h3 a0 a1 a2 a3 a4 a5 a6 a7 a8) a1 a2) (normCol a2))

/-! ## The boundaries, in order -/

variable (m : (ℓ : Loc nD τ sig) → Buf (Elt Ideal) ℓ) (ρ : Dev nD → PrngReg) (c : Dev nD)

-- at the first call's entry
theorem at1_arg0 : W1 m ρ c (Proc.devRef .tc main_arg0) = (m ((c.tc : Thread nD τ).loc main_arg0)) := pre_arg0 (W0 m ρ c)
theorem at1_arg1 : W1 m ρ c (Proc.devRef .tc main_arg1) = (m ((c.tc : Thread nD τ).loc main_arg1)) := pre_arg1 (W0 m ρ c)
theorem at1_arg2 : W1 m ρ c (Proc.devRef .tc main_arg2) = (m ((c.tc : Thread nD τ).loc main_arg2)) := pre_arg2 (W0 m ρ c)
theorem at1_v10 : W1 m ρ c (Proc.devRef .tc main_v10) = normCol (m ((c.tc : Thread nD τ).loc main_arg1)) := pre_v10 (W0 m ρ c)
theorem at1_v14 : W1 m ρ c (Proc.devRef .tc main_v14) = normCol (m ((c.tc : Thread nD τ).loc main_arg2)) := pre_v14 (W0 m ρ c)
theorem at1_v15 : W1 m ρ c (Proc.devRef .tc main_v15) = (truncf (F := Ideal) .bf16 (m ((c.tc : Thread nD τ).loc main_arg3)) bitsLt_bf16_f32) := pre_v15 (W0 m ρ c)
theorem at1_v16 : W1 m ρ c (Proc.devRef .tc main_v16) = (shapeCast S1x256 (m ((c.tc : Thread nD τ).loc main_arg4)) shapeCasts_S256_S1x256) := pre_v16 (W0 m ρ c)
theorem at1_v17 : W1 m ρ c (Proc.devRef .tc main_v17) = (truncf (F := Ideal) .bf16 (m ((c.tc : Thread nD τ).loc main_arg5)) bitsLt_bf16_f32) := pre_v17 (W0 m ρ c)
theorem at1_v18 : W1 m ρ c (Proc.devRef .tc main_v18) = (shapeCast S1x256 (m ((c.tc : Thread nD τ).loc main_arg6)) shapeCasts_S256_S1x256) := pre_v18 (W0 m ρ c)
theorem at1_v19 : W1 m ρ c (Proc.devRef .tc main_v19) = (truncf (F := Ideal) .bf16 (m ((c.tc : Thread nD τ).loc main_arg7)) bitsLt_bf16_f32) := pre_v19 (W0 m ρ c)
theorem at1_v20 : W1 m ρ c (Proc.devRef .tc main_v20) = (shapeCast S1x128 (m ((c.tc : Thread nD τ).loc main_arg8)) shapeCasts_S128_S1x128) := pre_v20 (W0 m ρ c)

-- at the first call's exit
theorem at2_v21 : W2 m ρ c (Proc.devRef .tc main_v21) = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W2_arr m ρ c 4).trans ((Layer1.final (V1 m ρ) c).trans (by
    show Layer1.arr (W1 m ρ c (Proc.devRef .tc main_arg0)) (W1 m ρ c (Proc.devRef .tc main_v10)) (W1 m ρ c (Proc.devRef .tc main_v15)) (W1 m ρ c (Proc.devRef .tc main_v16)) = _
    rw [at1_arg0, at1_v10, at1_v15, at1_v16]; rfl))
theorem at2_v10 : W2 m ρ c (Proc.devRef .tc main_v10) = normCol (m ((c.tc : Thread nD τ).loc main_arg1)) :=
  (W2_arr m ρ c 1).trans (((dat0 (V1 m ρ) c).arrAt_in 1 rfl _).trans ((A_eq0 (V1 m ρ) c 1).trans (at1_v10 m ρ c)))
theorem at2_v14 : W2 m ρ c (Proc.devRef .tc main_v14) = normCol (m ((c.tc : Thread nD τ).loc main_arg2)) := (W2_of_ne m ρ c main_v14 (by decide)).trans (at1_v14 m ρ c)
theorem at2_v17 : W2 m ρ c (Proc.devRef .tc main_v17) = (truncf (F := Ideal) .bf16 (m ((c.tc : Thread nD τ).loc main_arg5)) bitsLt_bf16_f32) := (W2_of_ne m ρ c main_v17 (by decide)).trans (at1_v17 m ρ c)
theorem at2_v18 : W2 m ρ c (Proc.devRef .tc main_v18) = (shapeCast S1x256 (m ((c.tc : Thread nD τ).loc main_arg6)) shapeCasts_S256_S1x256) := (W2_of_ne m ρ c main_v18 (by decide)).trans (at1_v18 m ρ c)
theorem at2_v19 : W2 m ρ c (Proc.devRef .tc main_v19) = (truncf (F := Ideal) .bf16 (m ((c.tc : Thread nD τ).loc main_arg7)) bitsLt_bf16_f32) := (W2_of_ne m ρ c main_v19 (by decide)).trans (at1_v19 m ρ c)
theorem at2_v20 : W2 m ρ c (Proc.devRef .tc main_v20) = (shapeCast S1x128 (m ((c.tc : Thread nD τ).loc main_arg8)) shapeCasts_S128_S1x128) := (W2_of_ne m ρ c main_v20 (by decide)).trans (at1_v20 m ρ c)
theorem at2_arg1 : W2 m ρ c (Proc.devRef .tc main_arg1) = (m ((c.tc : Thread nD τ).loc main_arg1)) := (W2_of_ne m ρ c main_arg1 (by decide)).trans (at1_arg1 m ρ c)
theorem at2_arg2 : W2 m ρ c (Proc.devRef .tc main_arg2) = (m ((c.tc : Thread nD τ).loc main_arg2)) := (W2_of_ne m ρ c main_arg2 (by decide)).trans (at1_arg2 m ρ c)

-- at the second call's entry
theorem at3_v31 : W3 m ρ c (Proc.devRef .tc main_v31) = agg256 (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2)) :=
  (mid1_v31 (W2 m ρ c)).trans (by rw [at2_v21, at2_arg1, at2_arg2])
theorem at3_v14 : W3 m ρ c (Proc.devRef .tc main_v14) = normCol (m ((c.tc : Thread nD τ).loc main_arg2)) := (mid1_v14 (W2 m ρ c)).trans (at2_v14 m ρ c)
theorem at3_v10 : W3 m ρ c (Proc.devRef .tc main_v10) = normCol (m ((c.tc : Thread nD τ).loc main_arg1)) := (mid1_v10 (W2 m ρ c)).trans (at2_v10 m ρ c)
theorem at3_v17 : W3 m ρ c (Proc.devRef .tc main_v17) = (truncf (F := Ideal) .bf16 (m ((c.tc : Thread nD τ).loc main_arg5)) bitsLt_bf16_f32) := (mid1_v17 (W2 m ρ c)).trans (at2_v17 m ρ c)
theorem at3_v18 : W3 m ρ c (Proc.devRef .tc main_v18) = (shapeCast S1x256 (m ((c.tc : Thread nD τ).loc main_arg6)) shapeCasts_S256_S1x256) := (mid1_v18 (W2 m ρ c)).trans (at2_v18 m ρ c)
theorem at3_v19 : W3 m ρ c (Proc.devRef .tc main_v19) = (truncf (F := Ideal) .bf16 (m ((c.tc : Thread nD τ).loc main_arg7)) bitsLt_bf16_f32) := (mid1_v19 (W2 m ρ c)).trans (at2_v19 m ρ c)
theorem at3_v20 : W3 m ρ c (Proc.devRef .tc main_v20) = (shapeCast S1x128 (m ((c.tc : Thread nD τ).loc main_arg8)) shapeCasts_S128_S1x128) := (mid1_v20 (W2 m ρ c)).trans (at2_v20 m ρ c)
theorem at3_arg1 : W3 m ρ c (Proc.devRef .tc main_arg1) = (m ((c.tc : Thread nD τ).loc main_arg1)) := (mid1_arg1 (W2 m ρ c)).trans (at2_arg1 m ρ c)
theorem at3_arg2 : W3 m ρ c (Proc.devRef .tc main_arg2) = (m ((c.tc : Thread nD τ).loc main_arg2)) := (mid1_arg2 (W2 m ρ c)).trans (at2_arg2 m ρ c)

-- at the second call's exit
theorem at4_v32 : W4 m ρ c (Proc.devRef .tc main_v32) = h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W4_arr m ρ c 5).trans ((Layer2.final (V3 m ρ) c).trans (by
    show Layer2.arr (W3 m ρ c (Proc.devRef .tc main_v31)) (W3 m ρ c (Proc.devRef .tc main_v14)) (W3 m ρ c (Proc.devRef .tc main_v10)) (W3 m ρ c (Proc.devRef .tc main_v17)) (W3 m ρ c (Proc.devRef .tc main_v18)) = _
    rw [at3_v31, at3_v14, at3_v10, at3_v17, at3_v18]; rfl))
theorem at4_v14 : W4 m ρ c (Proc.devRef .tc main_v14) = normCol (m ((c.tc : Thread nD τ).loc main_arg2)) :=
  (W4_arr m ρ c 1).trans (((dat1 (V3 m ρ) c).arrAt_in 1 rfl _).trans ((A_eq1 (V3 m ρ) c 1).trans (at3_v14 m ρ c)))
theorem at4_v10 : W4 m ρ c (Proc.devRef .tc main_v10) = normCol (m ((c.tc : Thread nD τ).loc main_arg1)) :=
  (W4_arr m ρ c 2).trans (((dat1 (V3 m ρ) c).arrAt_in 2 rfl _).trans ((A_eq1 (V3 m ρ) c 2).trans (at3_v10 m ρ c)))
theorem at4_v19 : W4 m ρ c (Proc.devRef .tc main_v19) = (truncf (F := Ideal) .bf16 (m ((c.tc : Thread nD τ).loc main_arg7)) bitsLt_bf16_f32) := (W4_of_ne m ρ c main_v19 (by decide)).trans (at3_v19 m ρ c)
theorem at4_v20 : W4 m ρ c (Proc.devRef .tc main_v20) = (shapeCast S1x128 (m ((c.tc : Thread nD τ).loc main_arg8)) shapeCasts_S128_S1x128) := (W4_of_ne m ρ c main_v20 (by decide)).trans (at3_v20 m ρ c)
theorem at4_arg1 : W4 m ρ c (Proc.devRef .tc main_arg1) = (m ((c.tc : Thread nD τ).loc main_arg1)) := (W4_of_ne m ρ c main_arg1 (by decide)).trans (at3_arg1 m ρ c)
theorem at4_arg2 : W4 m ρ c (Proc.devRef .tc main_arg2) = (m ((c.tc : Thread nD τ).loc main_arg2)) := (W4_of_ne m ρ c main_arg2 (by decide)).trans (at3_arg2 m ρ c)

-- at the third call's entry
theorem at5_v42 : W5 m ρ c (Proc.devRef .tc main_v42) = agg256 (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2)) :=
  (mid2_v42 (W4 m ρ c)).trans (by rw [at4_v32, at4_arg1, at4_arg2])
theorem at5_v14 : W5 m ρ c (Proc.devRef .tc main_v14) = normCol (m ((c.tc : Thread nD τ).loc main_arg2)) := (mid2_v14 (W4 m ρ c)).trans (at4_v14 m ρ c)
theorem at5_v10 : W5 m ρ c (Proc.devRef .tc main_v10) = normCol (m ((c.tc : Thread nD τ).loc main_arg1)) := (mid2_v10 (W4 m ρ c)).trans (at4_v10 m ρ c)
theorem at5_v19 : W5 m ρ c (Proc.devRef .tc main_v19) = (truncf (F := Ideal) .bf16 (m ((c.tc : Thread nD τ).loc main_arg7)) bitsLt_bf16_f32) := (mid2_v19 (W4 m ρ c)).trans (at4_v19 m ρ c)
theorem at5_v20 : W5 m ρ c (Proc.devRef .tc main_v20) = (shapeCast S1x128 (m ((c.tc : Thread nD τ).loc main_arg8)) shapeCasts_S128_S1x128) := (mid2_v20 (W4 m ρ c)).trans (at4_v20 m ρ c)
theorem at5_arg1 : W5 m ρ c (Proc.devRef .tc main_arg1) = (m ((c.tc : Thread nD τ).loc main_arg1)) := (mid2_arg1 (W4 m ρ c)).trans (at4_arg1 m ρ c)
theorem at5_arg2 : W5 m ρ c (Proc.devRef .tc main_arg2) = (m ((c.tc : Thread nD τ).loc main_arg2)) := (mid2_arg2 (W4 m ρ c)).trans (at4_arg2 m ρ c)

-- at the third call's exit
theorem at6_v43 : W6 m ρ c (Proc.devRef .tc main_v43) = h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W6_arr m ρ c 5).trans ((Layer3.final (V5 m ρ) c).trans (by
    show Layer3.arr (W5 m ρ c (Proc.devRef .tc main_v42)) (W5 m ρ c (Proc.devRef .tc main_v14)) (W5 m ρ c (Proc.devRef .tc main_v10)) (W5 m ρ c (Proc.devRef .tc main_v19)) (W5 m ρ c (Proc.devRef .tc main_v20)) = _
    rw [at5_v42, at5_v14, at5_v10, at5_v19, at5_v20]; rfl))
theorem at6_v14 : W6 m ρ c (Proc.devRef .tc main_v14) = normCol (m ((c.tc : Thread nD τ).loc main_arg2)) :=
  (W6_arr m ρ c 1).trans (((dat2 (V5 m ρ) c).arrAt_in 1 rfl _).trans ((A_eq2 (V5 m ρ) c 1).trans (at5_v14 m ρ c)))
theorem at6_arg1 : W6 m ρ c (Proc.devRef .tc main_arg1) = (m ((c.tc : Thread nD τ).loc main_arg1)) := (W6_of_ne m ρ c main_arg1 (by decide)).trans (at5_arg1 m ρ c)
theorem at6_arg2 : W6 m ρ c (Proc.devRef .tc main_arg2) = (m ((c.tc : Thread nD τ).loc main_arg2)) := (W6_of_ne m ρ c main_arg2 (by decide)).trans (at5_arg2 m ρ c)

/-- The result buffer at the last boundary is the stage-by-stage value of the arguments. -/
theorem result : W8 m ρ c (Proc.devRef .tc main_v56) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (last_v56 (W7 m ρ c)).trans (by
    rw [show W7 m ρ c (Proc.devRef .tc main_v55) = _ from post_v55 (W6 m ρ c), at6_v43, at6_arg1, at6_arg2, at6_v14]; rfl)

end Cert.KernelIdeal.Fold

end
-- ==== Proof.RefDense.lean ====
/-
  The reference's dense layer and its activation, read one entry at a time on the extended reals: the host's
  `dot_general` is the plain sum over the contracted features, a `broadcast_in_dim` reads its operand at the
  coordinates it keeps. So entry `(P, q)` of a layer is `(∑ₖ x(P,k) · w(k,q) + b(q)) · s(P)`, and the activation
  of an aggregate is `max(agg(P,k) · r(P), 0)`.
-/
import proofs.«153455_j10694468567401_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Dense

open Idealize.ShloMosaic Idealize.ShloMosaic.ValueIdx Cert.ReferenceIdeal Cert.ReferenceIdeal.Gen

theorem dn1_l0 (i : S50000x256.Idx) (q : dot_S50000x128_S128x256_S50000x256_1_0_0_1_n_n.contr.Idx) : (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem dn1_l1 (i : S50000x256.Idx) (q : dot_S50000x128_S128x256_S50000x256_1_0_0_1_n_n.contr.Idx) : (dot_S50000x128_S128x256_S50000x256_1_0_0_1_n_n.lhsIdx i q 1).val = (q ⟨0, by decide⟩).val :=
  dot_S50000x128_S128x256_S50000x256_1_0_0_1_n_n.lhsIdx_val_of_single rfl i q
theorem dn1_r0 (i : S50000x256.Idx) (q : dot_S50000x128_S128x256_S50000x256_1_0_0_1_n_n.contr.Idx) : (dot_S50000x128_S128x256_S50000x256_1_0_0_1_n_n.rhsIdx i q 0).val = (q ⟨0, by decide⟩).val :=
  dot_S50000x128_S128x256_S50000x256_1_0_0_1_n_n.rhsIdx_val_of_single rfl i q
theorem dn1_r1 (i : S50000x256.Idx) (q : dot_S50000x128_S128x256_S50000x256_1_0_0_1_n_n.contr.Idx) : (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl
/-- The contraction read at an output index, re-indexed over the 128 contracted features: the left operand's row against the right operand's column. -/
theorem dn1_sum {φ₁ φ₂ : FTy} (x : FVec Ideal S50000x128 φ₁) (w : FVec Ideal S128x256 φ₂) (i : S50000x256.Idx) :
    (∑ k : dot_S50000x128_S128x256_S50000x256_1_0_0_1_n_n.contr.Idx, x (dot_S50000x128_S128x256_S50000x256_1_0_0_1_n_n.lhsIdx i k) * w (dot_S50000x128_S128x256_S50000x256_1_0_0_1_n_n.rhsIdx i k))
      = ∑ k : Fin 128, x (ix2 ⟨(i 0).val, (i 0).isLt⟩ k) * w (ix2 k ⟨(i 1).val, (i 1).isLt⟩) := by
  rw [← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx i ((contrEquiv1 dot_S50000x128_S128x256_S50000x256_1_0_0_1_n_n 128 rfl rfl).symm k) = ix2 ⟨(i 0).val, (i 0).isLt⟩ k := funext fun a => Fin.ext (by
    match a with
    | ⟨0, _⟩ => exact dn1_l0 _ _
    | ⟨1, _⟩ => exact (dn1_l1 _ _).trans hk)
  have er : dot_S50000x128_S128x256_S50000x256_1_0_0_1_n_n.rhsIdx i ((contrEquiv1 dot_S50000x128_S128x256_S50000x256_1_0_0_1_n_n 128 rfl rfl).symm k) = ix2 k ⟨(i 1).val, (i 1).isLt⟩ := funext fun a => Fin.ext (by
    match a with
    | ⟨0, _⟩ => exact (dn1_r0 _ _).trans hk
    | ⟨1, _⟩ => exact dn1_r1 _ _)
  rw [el, er]
  rfl

theorem dn2_l0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem dn2_l1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem dn2_r0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem dn2_r1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl
/-- The contraction read at an output index, re-indexed over the 256 contracted features: the left operand's row against the right operand's column. -/
theorem dn2_sum {φ₁ φ₂ : FTy} (x : FVec Ideal S50000x256 φ₁) (w : FVec Ideal S256x256 φ₂) (i : S50000x256.Idx) :
    (∑ k : dot_S50000x256_S256x256_S50000x256_1_0_0_1_n_n.contr.Idx, x (dot_S50000x256_S256x256_S50000x256_1_0_0_1_n_n.lhsIdx i k) * w (dot_S50000x256_S256x256_S50000x256_1_0_0_1_n_n.rhsIdx i k))
      = ∑ k : Fin 256, x (ix2 ⟨(i 0).val, (i 0).isLt⟩ k) * w (ix2 k ⟨(i 1).val, (i 1).isLt⟩) := by
  rw [← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx i ((contrEquiv1 dot_S50000x256_S256x256_S50000x256_1_0_0_1_n_n 256 rfl rfl).symm k) = ix2 ⟨(i 0).val, (i 0).isLt⟩ k := funext fun a => Fin.ext (by
    match a with
    | ⟨0, _⟩ => exact dn2_l0 _ _
    | ⟨1, _⟩ => exact (dn2_l1 _ _).trans hk)
  have er : dot_S50000x256_S256x256_S50000x256_1_0_0_1_n_n.rhsIdx i ((contrEquiv1 dot_S50000x256_S256x256_S50000x256_1_0_0_1_n_n 256 rfl rfl).symm k) = ix2 k ⟨(i 1).val, (i 1).isLt⟩ := funext fun a => Fin.ext (by
    match a with
    | ⟨0, _⟩ => exact (dn2_r0 _ _).trans hk
    | ⟨1, _⟩ => exact dn2_r1 _ _)
  rw [el, er]
  rfl

theorem dn3_l0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem dn3_l1 (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem dn3_r0 (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem dn3_r1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl
/-- The contraction read at an output index, re-indexed over the 256 contracted features: the left operand's row against the right operand's column. -/
theorem dn3_sum {φ₁ φ₂ : FTy} (x : FVec Ideal S50000x256 φ₁) (w : FVec Ideal S256x128 φ₂) (i : S50000x128.Idx) :
    (∑ k : dot_S50000x256_S256x128_S50000x128_1_0_0_1_n_n.contr.Idx, x (dot_S50000x256_S256x128_S50000x128_1_0_0_1_n_n.lhsIdx i k) * w (dot_S50000x256_S256x128_S50000x128_1_0_0_1_n_n.rhsIdx i k))
      = ∑ k : Fin 256, x (ix2 ⟨(i 0).val, (i 0).isLt⟩ k) * w (ix2 k ⟨(i 1).val, (i 1).isLt⟩) := by
  rw [← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx i ((contrEquiv1 dot_S50000x256_S256x128_S50000x128_1_0_0_1_n_n 256 rfl rfl).symm k) = ix2 ⟨(i 0).val, (i 0).isLt⟩ k := funext fun a => Fin.ext (by
    match a with
    | ⟨0, _⟩ => exact dn3_l0 _ _
    | ⟨1, _⟩ => exact (dn3_l1 _ _).trans hk)
  have er : dot_S50000x256_S256x128_S50000x128_1_0_0_1_n_n.rhsIdx i ((contrEquiv1 dot_S50000x256_S256x128_S50000x128_1_0_0_1_n_n 256 rfl rfl).symm k) = ix2 k ⟨(i 1).val, (i 1).isLt⟩ := funext fun a => Fin.ext (by
    match a with
    | ⟨0, _⟩ => exact (dn3_r0 _ _).trans hk
    | ⟨1, _⟩ => exact dn3_r1 _ _)
  rw [el, er]
  rfl

/-- The reference's dense layer 1: features times weights, plus the bias broadcast over the rows, times the sender norm broadcast over the columns. -/
def dense1 (x : FVec Ideal S50000x128 .f32) (w : FVec Ideal S128x256 .f32) (b : FVec Ideal S256 .f32) (snc : FVec Ideal S50000x1 .f32) : FVec Ideal S50000x256 .f32 :=
  mulf (addf (Host.dotGeneral dot_S50000x128_S128x256_S50000x256_1_0_0_1_n_n none x w) (broadcastInDim S50000x256 ![0, 1] bcast_S1x256_S50000x256_0_1 (broadcastInDim S1x256 ![1] bcast_S256_S1x256_1 b)))
    (broadcastInDim S50000x256 ![0, 1] bcast_S50000x1_S50000x256_0_1 snc)

/-- Entry `(P, q)` of dense layer 1: `(∑ₖ x(P,k) · w(k,q) + b(q)) · s(P)`. -/
theorem dense1_apply (x : FVec Ideal S50000x128 .f32) (w : FVec Ideal S128x256 .f32) (b : FVec Ideal S256 .f32) (snc : FVec Ideal S50000x1 .f32)
    (P : Fin 50000) (q : Fin 256) :
    dense1 x w b snc (ix2 P q) = (∑ k : Fin 128, x (ix2 P k) * w (ix2 k q) + b (ix1 q)) * snc (ix2 P (0 : Fin 1)) := by
  unfold dense1
  show (Host.dotGeneral dot_S50000x128_S128x256_S50000x256_1_0_0_1_n_n none x w (ix2 P q) + broadcastInDim S50000x256 ![0, 1] bcast_S1x256_S50000x256_0_1 (broadcastInDim S1x256 ![1] bcast_S256_S1x256_1 b) (ix2 P q))
      * broadcastInDim S50000x256 ![0, 1] bcast_S50000x1_S50000x256_0_1 snc (ix2 P q) = _
  rw [broadcastInDim_apply _ bcast_S1x256_S50000x256_0_1 _ (ix2 P q) (ix2 (0 : Fin 1) q) (fun a => match a with
      | ⟨0, _⟩ => by show 0 = if (1 : Nat) = 1 then 0 else P.val; rw [if_pos rfl]
      | ⟨1, _⟩ => by show q.val = if (256 : Nat) = 1 then 0 else q.val; rw [if_neg (by decide)]),
    broadcastInDim_apply _ bcast_S256_S1x256_1 b (ix2 (0 : Fin 1) q) (ix1 q) (fun a => match a with
      | ⟨0, _⟩ => by show q.val = if (256 : Nat) = 1 then 0 else q.val; rw [if_neg (by decide)]),
    broadcastInDim_apply _ bcast_S50000x1_S50000x256_0_1 snc (ix2 P q) (ix2 P (0 : Fin 1)) (fun a => match a with
      | ⟨0, _⟩ => by show P.val = if (50000 : Nat) = 1 then 0 else P.val; rw [if_neg (by decide)]
      | ⟨1, _⟩ => by show 0 = if (1 : Nat) = 1 then 0 else q.val; rw [if_pos rfl])]
  refine congrArg (fun z => (z + b (ix1 q)) * snc (ix2 P (0 : Fin 1))) ?_
  simp only [Host.dotGeneral]
  refine (Ideal.dotGeneral_apply (φ₁ := .f32) (φ₂ := .f32) dot_S50000x128_S128x256_S50000x256_1_0_0_1_n_n none _ x w (ix2 P q)).trans ?_
  exact dn1_sum (φ₁ := .f32) (φ₂ := .f32) x w (ix2 P q)

/-- The reference's dense layer 2: features times weights, plus the bias broadcast over the rows, times the sender norm broadcast over the columns. -/
def dense2 (x : FVec Ideal S50000x256 .f32) (w : FVec Ideal S256x256 .f32) (b : FVec Ideal S256 .f32) (snc : FVec Ideal S50000x1 .f32) : FVec Ideal S50000x256 .f32 :=
  mulf (addf (Host.dotGeneral dot_S50000x256_S256x256_S50000x256_1_0_0_1_n_n none x w) (broadcastInDim S50000x256 ![0, 1] bcast_S1x256_S50000x256_0_1 (broadcastInDim S1x256 ![1] bcast_S256_S1x256_1 b)))
    (broadcastInDim S50000x256 ![0, 1] bcast_S50000x1_S50000x256_0_1 snc)

/-- Entry `(P, q)` of dense layer 2: `(∑ₖ x(P,k) · w(k,q) + b(q)) · s(P)`. -/
theorem dense2_apply (x : FVec Ideal S50000x256 .f32) (w : FVec Ideal S256x256 .f32) (b : FVec Ideal S256 .f32) (snc : FVec Ideal S50000x1 .f32)
    (P : Fin 50000) (q : Fin 256) :
    dense2 x w b snc (ix2 P q) = (∑ k : Fin 256, x (ix2 P k) * w (ix2 k q) + b (ix1 q)) * snc (ix2 P (0 : Fin 1)) := by
  unfold dense2
  show (Host.dotGeneral dot_S50000x256_S256x256_S50000x256_1_0_0_1_n_n none x w (ix2 P q) + broadcastInDim S50000x256 ![0, 1] bcast_S1x256_S50000x256_0_1 (broadcastInDim S1x256 ![1] bcast_S256_S1x256_1 b) (ix2 P q))
      * broadcastInDim S50000x256 ![0, 1] bcast_S50000x1_S50000x256_0_1 snc (ix2 P q) = _
  rw [broadcastInDim_apply _ bcast_S1x256_S50000x256_0_1 _ (ix2 P q) (ix2 (0 : Fin 1) q) (fun a => match a with
      | ⟨0, _⟩ => by show 0 = if (1 : Nat) = 1 then 0 else P.val; rw [if_pos rfl]
      | ⟨1, _⟩ => by show q.val = if (256 : Nat) = 1 then 0 else q.val; rw [if_neg (by decide)]),
    broadcastInDim_apply _ bcast_S256_S1x256_1 b (ix2 (0 : Fin 1) q) (ix1 q) (fun a => match a with
      | ⟨0, _⟩ => by show q.val = if (256 : Nat) = 1 then 0 else q.val; rw [if_neg (by decide)]),
    broadcastInDim_apply _ bcast_S50000x1_S50000x256_0_1 snc (ix2 P q) (ix2 P (0 : Fin 1)) (fun a => match a with
      | ⟨0, _⟩ => by show P.val = if (50000 : Nat) = 1 then 0 else P.val; rw [if_neg (by decide)]
      | ⟨1, _⟩ => by show 0 = if (1 : Nat) = 1 then 0 else q.val; rw [if_pos rfl])]
  refine congrArg (fun z => (z + b (ix1 q)) * snc (ix2 P (0 : Fin 1))) ?_
  simp only [Host.dotGeneral]
  refine (Ideal.dotGeneral_apply (φ₁ := .f32) (φ₂ := .f32) dot_S50000x256_S256x256_S50000x256_1_0_0_1_n_n none _ x w (ix2 P q)).trans ?_
  exact dn2_sum (φ₁ := .f32) (φ₂ := .f32) x w (ix2 P q)

/-- The reference's dense layer 3: features times weights, plus the bias broadcast over the rows, times the sender norm broadcast over the columns. -/
def dense3 (x : FVec Ideal S50000x256 .f32) (w : FVec Ideal S256x128 .f32) (b : FVec Ideal S128 .f32) (snc : FVec Ideal S50000x1 .f32) : FVec Ideal S50000x128 .f32 :=
  mulf (addf (Host.dotGeneral dot_S50000x256_S256x128_S50000x128_1_0_0_1_n_n none x w) (broadcastInDim S50000x128 ![0, 1] bcast_S1x128_S50000x128_0_1 (broadcastInDim S1x128 ![1] bcast_S128_S1x128_1 b)))
    (broadcastInDim S50000x128 ![0, 1] bcast_S50000x1_S50000x128_0_1 snc)

/-- Entry `(P, q)` of dense layer 3: `(∑ₖ x(P,k) · w(k,q) + b(q)) · s(P)`. -/
theorem dense3_apply (x : FVec Ideal S50000x256 .f32) (w : FVec Ideal S256x128 .f32) (b : FVec Ideal S128 .f32) (snc : FVec Ideal S50000x1 .f32)
    (P : Fin 50000) (q : Fin 128) :
    dense3 x w b snc (ix2 P q) = (∑ k : Fin 256, x (ix2 P k) * w (ix2 k q) + b (ix1 q)) * snc (ix2 P (0 : Fin 1)) := by
  unfold dense3
  show (Host.dotGeneral dot_S50000x256_S256x128_S50000x128_1_0_0_1_n_n none x w (ix2 P q) + broadcastInDim S50000x128 ![0, 1] bcast_S1x128_S50000x128_0_1 (broadcastInDim S1x128 ![1] bcast_S128_S1x128_1 b) (ix2 P q))
      * broadcastInDim S50000x128 ![0, 1] bcast_S50000x1_S50000x128_0_1 snc (ix2 P q) = _
  rw [broadcastInDim_apply _ bcast_S1x128_S50000x128_0_1 _ (ix2 P q) (ix2 (0 : Fin 1) q) (fun a => match a with
      | ⟨0, _⟩ => by show 0 = if (1 : Nat) = 1 then 0 else P.val; rw [if_pos rfl]
      | ⟨1, _⟩ => by show q.val = if (128 : Nat) = 1 then 0 else q.val; rw [if_neg (by decide)]),
    broadcastInDim_apply _ bcast_S128_S1x128_1 b (ix2 (0 : Fin 1) q) (ix1 q) (fun a => match a with
      | ⟨0, _⟩ => by show q.val = if (128 : Nat) = 1 then 0 else q.val; rw [if_neg (by decide)]),
    broadcastInDim_apply _ bcast_S50000x1_S50000x128_0_1 snc (ix2 P q) (ix2 P (0 : Fin 1)) (fun a => match a with
      | ⟨0, _⟩ => by show P.val = if (50000 : Nat) = 1 then 0 else P.val; rw [if_neg (by decide)]
      | ⟨1, _⟩ => by show 0 = if (1 : Nat) = 1 then 0 else q.val; rw [if_pos rfl])]
  refine congrArg (fun z => (z + b (ix1 q)) * snc (ix2 P (0 : Fin 1))) ?_
  simp only [Host.dotGeneral]
  refine (Ideal.dotGeneral_apply (φ₁ := .f32) (φ₂ := .f32) dot_S50000x256_S256x128_S50000x128_1_0_0_1_n_n none _ x w (ix2 P q)).trans ?_
  exact dn3_sum (φ₁ := .f32) (φ₂ := .f32) x w (ix2 P q)

/-- The activation between layers on a `[50000, 256]` aggregate: scale row `P` by the receiver norm, then clip below at zero. -/
def act256 (agg : FVec Ideal S50000x256 .f32) (rnc : FVec Ideal S50000x1 .f32) : FVec Ideal S50000x256 .f32 :=
  maximumf (mulf agg (broadcastInDim S50000x256 ![0, 1] bcast_S50000x1_S50000x256_0_1 rnc))
    (broadcastInDim S50000x256 ![] bcast_S_S50000x256 (constant S_ .f32 0x00000000#32))

theorem act256_apply (agg : FVec Ideal S50000x256 .f32) (rnc : FVec Ideal S50000x1 .f32) (P : Fin 50000) (k : Fin 256) :
    act256 agg rnc (ix2 P k) = max (agg (ix2 P k) * rnc (ix2 P (0 : Fin 1))) (Ideal.ofBits .f32 0x00000000#32) := by
  unfold act256
  show max (agg (ix2 P k) * broadcastInDim S50000x256 ![0, 1] bcast_S50000x1_S50000x256_0_1 rnc (ix2 P k))
      (broadcastInDim S50000x256 ![] bcast_S_S50000x256 (constant (F := Ideal) S_ .f32 0x00000000#32) (ix2 P k)) = _
  rw [broadcastInDim_apply _ bcast_S50000x1_S50000x256_0_1 rnc (ix2 P k) (ix2 P (0 : Fin 1)) (fun a => match a with
      | ⟨0, _⟩ => by show P.val = if (50000 : Nat) = 1 then 0 else P.val; rw [if_neg (by decide)]
      | ⟨1, _⟩ => by show 0 = if (1 : Nat) = 1 then 0 else k.val; rw [if_pos rfl]),
    broadcastInDim_apply _ bcast_S_S50000x256 (constant (F := Ideal) S_ .f32 0x00000000#32) (ix2 P k) ix0 (fun a => a.elim0)]
  rfl

/-- The activation between layers on a `[50000, 128]` aggregate: scale row `P` by the receiver norm, then clip below at zero. -/
def act128 (agg : FVec Ideal S50000x128 .f32) (rnc : FVec Ideal S50000x1 .f32) : FVec Ideal S50000x128 .f32 :=
  maximumf (mulf agg (broadcastInDim S50000x128 ![0, 1] bcast_S50000x1_S50000x128_0_1 rnc))
    (broadcastInDim S50000x128 ![] bcast_S_S50000x128 (constant S_ .f32 0x00000000#32))

theorem act128_apply (agg : FVec Ideal S50000x128 .f32) (rnc : FVec Ideal S50000x1 .f32) (P : Fin 50000) (k : Fin 128) :
    act128 agg rnc (ix2 P k) = max (agg (ix2 P k) * rnc (ix2 P (0 : Fin 1))) (Ideal.ofBits .f32 0x00000000#32) := by
  unfold act128
  show max (agg (ix2 P k) * broadcastInDim S50000x128 ![0, 1] bcast_S50000x1_S50000x128_0_1 rnc (ix2 P k))
      (broadcastInDim S50000x128 ![] bcast_S_S50000x128 (constant (F := Ideal) S_ .f32 0x00000000#32) (ix2 P k)) = _
  rw [broadcastInDim_apply _ bcast_S50000x1_S50000x128_0_1 rnc (ix2 P k) (ix2 P (0 : Fin 1)) (fun a => match a with
      | ⟨0, _⟩ => by show P.val = if (50000 : Nat) = 1 then 0 else P.val; rw [if_neg (by decide)]
      | ⟨1, _⟩ => by show 0 = if (1 : Nat) = 1 then 0 else k.val; rw [if_pos rfl]),
    broadcastInDim_apply _ bcast_S_S50000x128 (constant (F := Ideal) S_ .f32 0x00000000#32) (ix2 P k) ix0 (fun a => a.elim0)]
  rfl

end Cert.ReferenceIdeal.Dense

end
-- ==== Proof.Bridge.lean ====
/-
  The two programs compute one function. The kernel's three calls are the reference's three dense layers — the first
  of the node features, the other two of the previous aggregate scaled by the receiver norm and clipped at zero — since
  rounding the operands to bf16 is the identity on the extended reals and a block-wise product into a zero accumulator is
  the plain sum; everything else (the degree norms, the gathers and scatter-adds, the last activation) is the same chain
  of host operations in both. No law of arithmetic is used beyond reading both sides at an index.
-/
import proofs.«153455_j10694468567401_1_alg».proof.Proof.KernelFold
import proofs.«153455_j10694468567401_1_alg».proof.Proof.RefDense
import proofs.«153455_j10694468567401_1_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx Idealize.SL.Sem

/-- The kernel's first layer on whole arrays is the reference's first dense layer: entry by entry both are
    `(∑ₖ x(P,k) · w(k,q) + b(q)) · s(P)`. -/
theorem layer1_eq (x : FVec Ideal Cert.KernelIdeal.S50000x128 .f32) (sn : FVec Ideal Cert.KernelIdeal.S50000x1 .f32) (w : FVec Ideal Cert.KernelIdeal.S128x256 .f32) (b : FVec Ideal Cert.KernelIdeal.S256 .f32) :
    Cert.KernelIdeal.Layer1.arr x sn (truncf (F := Ideal) .bf16 w Cert.KernelIdeal.Facts₀.bitsLt_bf16_f32) (shapeCast Cert.KernelIdeal.S1x256 b Cert.KernelIdeal.Facts₀.shapeCasts_S256_S1x256) = Cert.ReferenceIdeal.Dense.dense1 x w b sn := by
  funext i
  obtain ⟨P, q, rfl⟩ : ∃ (P : Fin 50000) (q : Fin 256), i = ix2 P q := ⟨i 0, i 1, eq_ix2 i⟩
  refine Eq.trans ?_ (Cert.ReferenceIdeal.Dense.dense1_apply x w b sn P q).symm
  show (∑ k : Fin 128, x (ix2 P k) * w (ix2 k q) + shapeCast Cert.KernelIdeal.S1x256 b Cert.KernelIdeal.Facts₀.shapeCasts_S256_S1x256 (ix2 (0 : Fin 1) q)) * sn (ix2 P (0 : Fin 1)) = _
  rw [shapeCast_a_1a_apply]

/-- Layer 2 of the kernel on whole arrays is the reference's dense layer 2 of the activated aggregate: entry by entry both are
    `(∑ₖ max(agg(P,k) · r(P), 0) · w(k,q) + b(q)) · s(P)`. -/
theorem layer2_eq (agg : FVec Ideal Cert.KernelIdeal.S50000x256 .f32) (rn sn : FVec Ideal Cert.KernelIdeal.S50000x1 .f32) (w : FVec Ideal Cert.KernelIdeal.S256x256 .f32) (b : FVec Ideal Cert.KernelIdeal.S256 .f32) :
    Cert.KernelIdeal.Layer2.arr agg rn sn (truncf (F := Ideal) .bf16 w Cert.KernelIdeal.Facts₀.bitsLt_bf16_f32) (shapeCast Cert.KernelIdeal.S1x256 b Cert.KernelIdeal.Facts₀.shapeCasts_S256_S1x256) = Cert.ReferenceIdeal.Dense.dense2 (Cert.ReferenceIdeal.Dense.act256 agg rn) w b sn := by
  funext i
  obtain ⟨P, q, rfl⟩ : ∃ (P : Fin 50000) (q : Fin 256), i = ix2 P q := ⟨i 0, i 1, eq_ix2 i⟩
  refine Eq.trans ?_ (Cert.ReferenceIdeal.Dense.dense2_apply (Cert.ReferenceIdeal.Dense.act256 agg rn) w b sn P q).symm
  simp only [Cert.ReferenceIdeal.Dense.act256_apply]
  show (∑ k : Fin 256, max (agg (ix2 P k) * rn (ix2 P (0 : Fin 1))) (Ideal.ofBits .f32 0x00000000#32) * w (ix2 k q) + shapeCast Cert.KernelIdeal.S1x256 b Cert.KernelIdeal.Facts₀.shapeCasts_S256_S1x256 (ix2 (0 : Fin 1) q)) * sn (ix2 P (0 : Fin 1)) = _
  rw [shapeCast_a_1a_apply]

/-- Layer 3 of the kernel on whole arrays is the reference's dense layer 3 of the activated aggregate: entry by entry both are
    `(∑ₖ max(agg(P,k) · r(P), 0) · w(k,q) + b(q)) · s(P)`. -/
theorem layer3_eq (agg : FVec Ideal Cert.KernelIdeal.S50000x256 .f32) (rn sn : FVec Ideal Cert.KernelIdeal.S50000x1 .f32) (w : FVec Ideal Cert.KernelIdeal.S256x128 .f32) (b : FVec Ideal Cert.KernelIdeal.S128 .f32) :
    Cert.KernelIdeal.Layer3.arr agg rn sn (truncf (F := Ideal) .bf16 w Cert.KernelIdeal.Facts₀.bitsLt_bf16_f32) (shapeCast Cert.KernelIdeal.S1x128 b Cert.KernelIdeal.Facts₀.shapeCasts_S128_S1x128) = Cert.ReferenceIdeal.Dense.dense3 (Cert.ReferenceIdeal.Dense.act256 agg rn) w b sn := by
  funext i
  obtain ⟨P, q, rfl⟩ : ∃ (P : Fin 50000) (q : Fin 128), i = ix2 P q := ⟨i 0, i 1, eq_ix2 i⟩
  refine Eq.trans ?_ (Cert.ReferenceIdeal.Dense.dense3_apply (Cert.ReferenceIdeal.Dense.act256 agg rn) w b sn P q).symm
  simp only [Cert.ReferenceIdeal.Dense.act256_apply]
  show (∑ k : Fin 256, max (agg (ix2 P k) * rn (ix2 P (0 : Fin 1))) (Ideal.ofBits .f32 0x00000000#32) * w (ix2 k q) + shapeCast Cert.KernelIdeal.S1x128 b Cert.KernelIdeal.Facts₀.shapeCasts_S128_S1x128 (ix2 (0 : Fin 1) q)) * sn (ix2 P (0 : Fin 1)) = _
  rw [shapeCast_a_1a_apply]

/-- The kernel's value with its three calls written as the reference's dense layers. -/
theorem out_dense (a0 : FVec Ideal Cert.KernelIdeal.S50000x128 .f32) (a1 a2 : IVec Cert.KernelIdeal.S800000 32) (a3 : FVec Ideal Cert.KernelIdeal.S128x256 .f32) (a4 : FVec Ideal Cert.KernelIdeal.S256 .f32) (a5 : FVec Ideal Cert.KernelIdeal.S256x256 .f32) (a6 : FVec Ideal Cert.KernelIdeal.S256 .f32) (a7 : FVec Ideal Cert.KernelIdeal.S256x128 .f32) (a8 : FVec Ideal Cert.KernelIdeal.S128 .f32) :
    Cert.KernelIdeal.Fold.out a0 a1 a2 a3 a4 a5 a6 a7 a8 = Cert.KernelIdeal.Fold.clip128 (Cert.KernelIdeal.Fold.scaled128 (Cert.KernelIdeal.Fold.agg128 (Cert.ReferenceIdeal.Dense.dense3 (Cert.ReferenceIdeal.Dense.act256 (Cert.KernelIdeal.Fold.agg256 (Cert.ReferenceIdeal.Dense.dense2 (Cert.ReferenceIdeal.Dense.act256 (Cert.KernelIdeal.Fold.agg256 (Cert.ReferenceIdeal.Dense.dense1 a0 a3 a4 (Cert.KernelIdeal.Fold.normCol a1)) a1 a2) (Cert.KernelIdeal.Fold.normCol a2)) a5 a6 (Cert.KernelIdeal.Fold.normCol a1)) a1 a2) (Cert.KernelIdeal.Fold.normCol a2)) a7 a8 (Cert.KernelIdeal.Fold.normCol a1)) a1 a2) (Cert.KernelIdeal.Fold.normCol a2)) := by
  unfold Cert.KernelIdeal.Fold.out Cert.KernelIdeal.Fold.h3 Cert.KernelIdeal.Fold.h2 Cert.KernelIdeal.Fold.h1
  rw [layer1_eq, layer2_eq, layer3_eq]

set_option maxRecDepth 8192 in
/-- The reference's result term is the kernel's value of the same arguments. -/
theorem ref_out (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v75 (F := Ideal) m c = Cert.KernelIdeal.Fold.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) := by
  rw [out_dense]
  unfold Cert.ReferenceIdeal.Value.res_main_v75 Cert.ReferenceIdeal.Dense.dense1 Cert.ReferenceIdeal.Dense.dense2 Cert.ReferenceIdeal.Dense.dense3 Cert.ReferenceIdeal.Dense.act256 Cert.KernelIdeal.Fold.clip128 Cert.KernelIdeal.Fold.scaled128 Cert.KernelIdeal.Fold.agg128 Cert.KernelIdeal.Fold.agg256 Cert.KernelIdeal.Fold.wrapIdx Cert.KernelIdeal.Fold.normCol
  rfl

end Cert.Bridge

end
-- ==== Proof.lean ====
/-
  A three-layer graph convolution. Both programs first count, for every node, how often it occurs among the
  senders and among the receivers, clip each count below at one and take reciprocal square roots: the sender norm
  `s` and the receiver norm `r`. A layer maps node features `x` to `(x · W + b) · s` row by row; its output is gathered
  along the senders and added onto the receivers' rows (the aggregate), which is scaled by `r` and clipped below at
  zero before the next layer, and once more at the end. The kernel computes each layer in a call that walks the
  50000 rows in 25 blocks of 2000, with the scaling and clipping of the incoming aggregate fused into the call; the
  reference computes it with whole-array host operations. On the extended reals a change of float format is the
  identity and a product accumulated from zero is the plain sum, so the two are the same function of the arguments,
  operation by operation: the value proof reads the kernel's run back through its eight segments (KernelRun,
  KernelFold), shows each call leaves the reference's dense layer of the arrays it found (KernelDense, Layer1–3,
  RefDense, Bridge), and compares the two result terms. The precondition is not used: no step moves a factor
  across a sum or cancels anything.
-/
import proofs.«153455_j10694468567401_1_alg».proof.Defs
import proofs.«153455_j10694468567401_1_alg».proof.Proof.Gen.Kernel
import proofs.«153455_j10694468567401_1_alg».proof.Proof.Gen.Kernel.Skeleton
import proofs.«153455_j10694468567401_1_alg».proof.Proof.Gen.Kernel.Launch
import proofs.«153455_j10694468567401_1_alg».proof.Proof.Gen.Kernel.Points
import proofs.«153455_j10694468567401_1_alg».proof.Proof.Gen.Kernel.Frame
import proofs.«153455_j10694468567401_1_alg».proof.Proof.Gen.KernelIdeal
import proofs.«153455_j10694468567401_1_alg».proof.Proof.Gen.KernelIdeal.Skeleton
import proofs.«153455_j10694468567401_1_alg».proof.Proof.Gen.KernelIdeal.Launch
import proofs.«153455_j10694468567401_1_alg».proof.Proof.Gen.KernelIdeal.Points
import proofs.«153455_j10694468567401_1_alg».proof.Proof.Gen.KernelIdeal.Frame
import proofs.«153455_j10694468567401_1_alg».proof.Proof.Gen.ReferenceIdeal
import proofs.«153455_j10694468567401_1_alg».proof.Proof.Gen.ReferenceIdeal.Run
import proofs.«153455_j10694468567401_1_alg».proof.Proof.Gen.Pre_finite_inputs
import proofs.«153455_j10694468567401_1_alg».proof.Proof.KernelRun
import proofs.«153455_j10694468567401_1_alg».proof.Proof.KernelFold
import proofs.«153455_j10694468567401_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result array: the stage-by-stage
    value of the arguments (`Fold.out`), which the kernel's run reaches segment by segment and which is the
    reference's composed term. -/
theorem algebraic : Cert.algebraic_KernelIdeal_ReferenceIdeal := by
  intro m ρ m' ρ' _ hagree
  refine ⟨fun c => Cert.KernelIdeal.Fold.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.Bridge.ref_out, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
